-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50 : Shape := ⟨2, ![2048, 50]⟩
abbrev S1000000x128 : Shape := ⟨2, ![1000000, 128]⟩
abbrev S12502x128 : Shape := ⟨2, ![12502, 128]⟩
abbrev S64x128 : Shape := ⟨2, ![64, 128]⟩
abbrev S12500x64 : Shape := ⟨2, ![12500, 64]⟩
abbrev S32x128 : Shape := ⟨2, ![32, 128]⟩
abbrev S25000x32 : Shape := ⟨2, ![25000, 32]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S12502x128 : S_.BroadcastsInDim S12502x128 (![] : Fin 0 → Fin S12502x128.rank)
  reducesTo_S12502x128_S_d0_1 : S12502x128.ReducesTo [0, 1] S_
  bcast_S_S64x128 : S_.BroadcastsInDim S64x128 (![] : Fin 0 → Fin S64x128.rank)
  reducesTo_S64x128_S_d0_1 : S64x128.ReducesTo [0, 1] S_
  bcast_S_S12500x64 : S_.BroadcastsInDim S12500x64 (![] : Fin 0 → Fin S12500x64.rank)
  reducesTo_S12500x64_S_d0_1 : S12500x64.ReducesTo [0, 1] S_
  bcast_S_S32x128 : S_.BroadcastsInDim S32x128 (![] : Fin 0 → Fin S32x128.rank)
  reducesTo_S32x128_S_d0_1 : S32x128.ReducesTo [0, 1] S_
  bcast_S_S25000x32 : S_.BroadcastsInDim S25000x32 (![] : Fin 0 → Fin S25000x32.rank)
  reducesTo_S25000x32_S_d0_1 : S25000x32.ReducesTo [0, 1] S_

variable [Facts]

def fn_part1 {F : FTy → Type} [FloatOps F] (main_arg5 : FVec F S32x128 .f32) (main_arg6 : FVec F S25000x32 .f32) (main_v13 : IVec S_ 1) (main_v16 : IVec S12500x64 1) : IVec S_ 1 :=
  let main_c_5 : IVec S_ 1 := constantI S_ 1 1#1
  let main_v17 : IVec S_ 1 := (fun x v => Host.reduce IntOp.andi x v reducesTo_S12500x64_S_d0_1 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S25000x32 .f32 := Host.absf main_arg6
  let main_cst_8 : FVec F S_ .f32 := constant S_ .f32 0x7F800000#32
  let main_v25 : FVec F S25000x32 .f32 := broadcastInDim S25000x32 ![] bcast_S_S25000x32 main_cst_8
  let main_v26 : IVec S25000x32 1 := cmpf .olt main_v24 main_v25
  let main_c_9 : IVec S_ 1 := constantI S_ 1 1#1
  let main_v27 : IVec S_ 1 := (fun x v => Host.reduce IntOp.andi x v reducesTo_S25000x32_S_d0_1 h_S_) main_v26 main_c_9
  let main_v28 : IVec S_ 1 := andi main_v23 main_v27
  main_v28

def fn {F : FTy → Type} [FloatOps F] (main_arg0 : IVec S2048x50 32) (main_arg1 : FVec F S1000000x128 .f32) (main_arg2 : FVec F S12502x128 .f32) (main_arg3 : FVec F S64x128 .f32) (main_arg4 : FVec F S12500x64 .f32) (main_arg5 : FVec F S32x128 .f32) (main_arg6 : FVec F S25000x32 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S12502x128 .f32 := Host.absf main_arg2
  let main_cst_0 : FVec F S_ .f32 := constant S_ .f32 0x7F800000#32
  let main_v5 : FVec F S12502x128 .f32 := broadcastInDim S12502x128 ![] bcast_S_S12502x128 main_cst_0
  let main_v6 : IVec S12502x128 1 := cmpf .olt main_v4 main_v5
  let main_c_1 : IVec S_ 1 := constantI S_ 1 1#1
  let main_v7 : IVec S_ 1 := (fun x v => Host.reduce IntOp.andi x v reducesTo_S12502x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S12500x64 .f32 := Host.absf main_arg4
  let main_cst_4 : FVec F S_ .f32 := constant S_ .f32 0x7F800000#32
  let main_v15 : FVec F S12500x64 .f32 := broadcastInDim S12500x64 ![] bcast_S_S12500x64 main_cst_4
  let main_v16 : IVec S12500x64 1 := cmpf .olt main_v14 main_v15
  fn_part1 (F := F) main_arg5 main_arg6 main_v13 main_v16
-- ==== Kernel.lean ====
abbrev S2048x50 : Shape := ⟨2, ![2048, 50]⟩
abbrev S1000000x128 : Shape := ⟨2, ![1000000, 128]⟩
abbrev S12502x128 : Shape := ⟨2, ![12502, 128]⟩
abbrev S64x128 : Shape := ⟨2, ![64, 128]⟩
abbrev S12500x64 : Shape := ⟨2, ![12500, 64]⟩
abbrev S32x128 : Shape := ⟨2, ![32, 128]⟩
abbrev S25000x32 : Shape := ⟨2, ![25000, 32]⟩
abbrev S_ : Shape := ⟨0, ![]⟩
abbrev S2048x50x1 : Shape := ⟨3, ![2048, 50, 1]⟩
abbrev S2048x50x128 : Shape := ⟨3, ![2048, 50, 128]⟩
abbrev S2048 : Shape := ⟨1, ![2048]⟩
abbrev S2048x1 : Shape := ⟨2, ![2048, 1]⟩
abbrev S2048x128 : Shape := ⟨2, ![2048, 128]⟩
abbrev S128x12502 : Shape := ⟨2, ![128, 12502]⟩
abbrev S128x64 : Shape := ⟨2, ![128, 64]⟩
abbrev S64x12500 : Shape := ⟨2, ![64, 12500]⟩
abbrev S128x32 : Shape := ⟨2, ![128, 32]⟩
abbrev S32x25000 : Shape := ⟨2, ![32, 25000]⟩
abbrev S2048x50000 : Shape := ⟨2, ![2048, 50000]⟩
abbrev S32x50000 : Shape := ⟨2, ![32, 50000]⟩
abbrev S32x12502 : Shape := ⟨2, ![32, 12502]⟩
abbrev S32 : Shape := ⟨1, ![32]⟩
abbrev S32x1 : Shape := ⟨2, ![32, 1]⟩
abbrev S32x12500 : Shape := ⟨2, ![32, 12500]⟩
abbrev S32x64 : Shape := ⟨2, ![32, 64]⟩
abbrev S32x32 : Shape := ⟨2, ![32, 32]⟩

abbrev nBuf : Space → Nat
  | .hbm => 47
  | .vmem => 9
  | .smem => 0
  | _ => 0

abbrev bufTy : (tb : Table) → Fin (tcTables nBuf tb) → BufTy
  | .hbm, ⟨0, _⟩ => ⟨S2048x50, .i32⟩
  | .hbm, ⟨1, _⟩ => ⟨S1000000x128, .f32⟩
  | .hbm, ⟨2, _⟩ => ⟨S12502x128, .f32⟩
  | .hbm, ⟨3, _⟩ => ⟨S64x128, .f32⟩
  | .hbm, ⟨4, _⟩ => ⟨S12500x64, .f32⟩
  | .hbm, ⟨5, _⟩ => ⟨S32x128, .f32⟩
  | .hbm, ⟨6, _⟩ => ⟨S25000x32, .f32⟩
  | .hbm, ⟨7, _⟩ => ⟨S_, .i32⟩
  | .hbm, ⟨8, _⟩ => ⟨S2048x50, .i32⟩
  | .hbm, ⟨9, _⟩ => ⟨S2048x50, .i1⟩
  | .hbm, ⟨10, _⟩ => ⟨S_, .i32⟩
  | .hbm, ⟨11, _⟩ => ⟨S2048x50, .i32⟩
  | .hbm, ⟨12, _⟩ => ⟨S2048x50, .i1⟩
  | .hbm, ⟨13, _⟩ => ⟨S_, .i32⟩
  | .hbm, ⟨14, _⟩ => ⟨S2048x50, .i32⟩
  | .hbm, ⟨15, _⟩ => ⟨S2048x50, .i32⟩
  | .hbm, ⟨16, _⟩ => ⟨S2048x50, .i32⟩
  | .hbm, ⟨17, _⟩ => ⟨S2048x50x1, .i32⟩
  | .hbm, ⟨18, _⟩ => ⟨S2048x50x128, .f32⟩
  | .hbm, ⟨19, _⟩ => ⟨S2048x50x1, .i1⟩
  | .hbm, ⟨20, _⟩ => ⟨S2048x50x1, .f32⟩
  | .hbm, ⟨21, _⟩ => ⟨S2048x50x128, .f32⟩
  | .hbm, ⟨22, _⟩ => ⟨S2048x50x128, .f32⟩
  | .hbm, ⟨23, _⟩ => ⟨S2048x50, .i32⟩
  | .hbm, ⟨24, _⟩ => ⟨S_, .i32⟩
  | .hbm, ⟨25, _⟩ => ⟨S2048, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .f32⟩
  | .hbm, ⟨31, _⟩ => ⟨S_, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S2048x128, .bf16⟩
  | .hbm, ⟨36, _⟩ => ⟨S128x12502, .f32⟩
  | .hbm, ⟨37, _⟩ => ⟨S128x64, .f32⟩
  | .hbm, ⟨38, _⟩ => ⟨S64x12500, .f32⟩
  | .hbm, ⟨39, _⟩ => ⟨S128x32, .f32⟩
  | .hbm, ⟨40, _⟩ => ⟨S32x25000, .f32⟩
  | .hbm, ⟨41, _⟩ => ⟨S128x12502, .bf16⟩
  | .hbm, ⟨42, _⟩ => ⟨S128x64, .bf16⟩
  | .hbm, ⟨43, _⟩ => ⟨S64x12500, .bf16⟩
  | .hbm, ⟨44, _⟩ => ⟨S128x32, .bf16⟩
  | .hbm, ⟨45, _⟩ => ⟨S32x25000, .bf16⟩
  | .hbm, ⟨46, _⟩ => ⟨S2048x50000, .f32⟩
  | .local _ .vmem, ⟨0, _⟩ => ⟨S32x128, .bf16⟩
  | .local _ .vmem, ⟨1, _⟩ => ⟨S32x128, .bf16⟩
  | .local _ .vmem, ⟨2, _⟩ => ⟨S128x12502, .bf16⟩
  | .local _ .vmem, ⟨3, _⟩ => ⟨S128x64, .bf16⟩
  | .local _ .vmem, ⟨4, _⟩ => ⟨S64x12500, .bf16⟩
  | .local _ .vmem, ⟨5, _⟩ => ⟨S128x32, .bf16⟩
  | .local _ .vmem, ⟨6, _⟩ => ⟨S32x25000, .bf16⟩
  | .local _ .vmem, ⟨7, _⟩ => ⟨S32x50000, .f32⟩
  | .local _ .vmem, ⟨8, _⟩ => ⟨S32x50000, .f32⟩
  | _, _ => ⟨S2048x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x12502 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x12500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x25000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x50000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S2048x50 : S_.BroadcastsInDim S2048x50 (![] : Fin 0 → Fin S2048x50.rank)
  bcast_S2048x50_S2048x50x1_0_1 : S2048x50.BroadcastsInDim S2048x50x1 (![0, 1] : Fin 2 → Fin S2048x50x1.rank)
  bcast_S2048x50x1_S2048x50x128_0_1_2 : S2048x50x1.BroadcastsInDim S2048x50x128 (![0, 1, 2] : Fin 3 → Fin S2048x50x128.rank)
  natLt_1_32 : 1 < 32
  reducesTo_S2048x50_S2048_d1 : S2048x50.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x50x128_S2048x128_d1 : S2048x50x128.ReducesTo [1] S2048x128
  bcast_S2048x1_S2048x128_0_1 : S2048x1.BroadcastsInDim S2048x128 (![0, 1] : Fin 2 → Fin S2048x128.rank)
  bitsLt_bf16_f32 : FTy.bits .bf16 < FTy.bits .f32
  transposes_S12502x128_S128x12502_1_0 : S12502x128.Transposes [1, 0] S128x12502
  transposes_S64x128_S128x64_1_0 : S64x128.Transposes [1, 0] S128x64
  transposes_S12500x64_S64x12500_1_0 : S12500x64.Transposes [1, 0] S64x12500
  transposes_S32x128_S128x32_1_0 : S32x128.Transposes [1, 0] S128x32
  transposes_S25000x32_S32x25000_1_0 : S25000x32.Transposes [1, 0] S32x25000
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x12502_S128x12502_0_0 : ∀ a, (![0, 0] : Fin 2 → Nat) a + S128x12502.size a ≤ S128x12502.size a
  h_S128x12502 : 0 < S128x12502.numel
  shapeCasts_S128x12502_S128x12502 : S128x12502.ShapeCasts S128x12502
  reduces_S32x12502_S32 : S32x12502.Reduces [1] S32
  shapeCasts_S32_S32x1 : S32.ShapeCasts S32x1
  broadcasts_S32x1_S32x12502 : S32x1.Broadcasts S32x12502
  slices_S32x12502_o0_0_S32x12500 : S32x12502.Slices ![0, 0] S32x12500
  inb_S32x50000_S32x12500_0_0 : ∀ a, (![0, 0] : Fin 2 → Nat) a + S32x12500.size a ≤ S32x50000.size a
  h_S32x12500 : 0 < S32x12500.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x12500_S64x12500_0_0 : ∀ a, (![0, 0] : Fin 2 → Nat) a + S64x12500.size a ≤ S64x12500.size a
  h_S64x12500 : 0 < S64x12500.numel
  shapeCasts_S64x12500_S64x12500 : S64x12500.ShapeCasts S64x12500
  reduces_S32x12500_S32 : S32x12500.Reduces [1] S32
  broadcasts_S32x1_S32x12500 : S32x1.Broadcasts S32x12500
  slices_S32x12502_o0_12500_S32x1 : S32x12502.Slices ![0, 12500] S32x1
  inb_S32x50000_S32x12500_0_12500 : ∀ a, (![0, 12500] : Fin 2 → Nat) a + S32x12500.size a ≤ S32x50000.size a
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x25000_S32x25000_0_0 : ∀ a, (![0, 0] : Fin 2 → Nat) a + S32x25000.size a ≤ S32x25000.size a
  h_S32x25000 : 0 < S32x25000.numel
  shapeCasts_S32x25000_S32x25000 : S32x25000.ShapeCasts S32x25000
  reduces_S32x25000_S32 : S32x25000.Reduces [1] S32
  broadcasts_S32x1_S32x25000 : S32x1.Broadcasts S32x25000
  slices_S32x12502_o0_12501_S32x1 : S32x12502.Slices ![0, 12501] S32x1
  inb_S32x50000_S32x25000_0_25000 : ∀ a, (![0, 25000] : Fin 2 → Nat) a + S32x25000.size a ≤ S32x50000.size a
  gather_S1000000x128_S2048x50x1_S2048x50x128_2_0_n_n_0_2_1128_wf : GatherDims.WF S1000000x128 S2048x50x1 S2048x50x128 [2] [0] [] [0] [] 2 ![1, 128]
  dot_S32x128_S128x12502_S32x12502_1_0_0_1_n_n_wf : DotDims.WF S32x128 S128x12502 S32x12502 [1] [0] [0] [1] [] []
  dot_S32x128_S128x64_S32x64_1_0_0_1_n_n_wf : DotDims.WF S32x128 S128x64 S32x64 [1] [0] [0] [1] [] []
  dot_S32x64_S64x12500_S32x12500_1_0_0_1_n_n_wf : DotDims.WF S32x64 S64x12500 S32x12500 [1] [0] [0] [1] [] []
  dot_S32x128_S128x32_S32x32_1_0_0_1_n_n_wf : DotDims.WF S32x128 S128x32 S32x32 [1] [0] [0] [1] [] []
  dot_S32x32_S32x25000_S32x25000_1_0_0_1_n_n_wf : DotDims.WF S32x32 S32x25000 S32x25000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S2048x128.size a
  hwx0_0 : ∀ i : grid0.Coords, EltTy.bits .bf16 = 32 ∨ (Rect.block (s := S2048x128) S32x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x12502.size a ≤ S128x12502.size a
  hwx0_1 : ∀ i : grid0.Coords, EltTy.bits .bf16 = 32 ∨ (Rect.block (s := S128x12502) S128x12502.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x12500.size a ≤ S64x12500.size a
  hwx0_3 : ∀ i : grid0.Coords, EltTy.bits .bf16 = 32 ∨ (Rect.block (s := S64x12500) S64x12500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .bf16 = 32 ∨ (Rect.block (s := S128x32) S128x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x25000.size a ≤ S32x25000.size a
  hwx0_5 : ∀ i : grid0.Coords, EltTy.bits .bf16 = 32 ∨ (Rect.block (s := S32x25000) S32x25000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x50000.size a ≤ S2048x50000.size a
  hwx0_6 : ∀ i : grid0.Coords, EltTy.bits .f32 = 32 ∨ (Rect.block (s := S2048x50000) S32x50000.size (cc0_transform_6 i) (hinb0_6 i)).WholeWords (EltTy.packing .f32)

variable [Facts₀]

def gather_S1000000x128_S2048x50x1_S2048x50x128_2_0_n_n_0_2_1128 : GatherDims S1000000x128 S2048x50x1 S2048x50x128 where
  offsetDims := [2]
  collapsedSliceDims := [0]
  operandBatchingDims := []
  startIndicesBatchingDims := []
  startIndexMap := [0]
  indexVectorDim := 2
  sliceSizes := ![1, 128]
  wf := gather_S1000000x128_S2048x50x1_S2048x50x128_2_0_n_n_0_2_1128_wf
def dot_S32x128_S128x12502_S32x12502_1_0_0_1_n_n : DotDims S32x128 S128x12502 S32x12502 where
  lhsContracting := [1]
  rhsContracting := [0]
  lhsNonContracting := [0]
  rhsNonContracting := [1]
  lhsBatch := []
  rhsBatch := []
  wf := dot_S32x128_S128x12502_S32x12502_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x12500_S32x12500_1_0_0_1_n_n : DotDims S32x64 S64x12500 S32x12500 where
  lhsContracting := [1]
  rhsContracting := [0]
  lhsNonContracting := [0]
  rhsNonContracting := [1]
  lhsBatch := []
  rhsBatch := []
  wf := dot_S32x64_S64x12500_S32x12500_1_0_0_1_n_n_wf
def dot_S32x128_S128x32_S32x32_1_0_0_1_n_n : DotDims S32x128 S128x32 S32x32 where
  lhsContracting := [1]
  rhsContracting := [0]
  lhsNonContracting := [0]
  rhsNonContracting := [1]
  lhsBatch := []
  rhsBatch := []
  wf := dot_S32x128_S128x32_S32x32_1_0_0_1_n_n_wf
def dot_S32x32_S32x25000_S32x25000_1_0_0_1_n_n : DotDims S32x32 S32x25000 S32x25000 where
  lhsContracting := [1]
  rhsContracting := [0]
  lhsNonContracting := [0]
  rhsNonContracting := [1]
  lhsBatch := []
  rhsBatch := []
  wf := dot_S32x32_S32x25000_S32x25000_1_0_0_1_n_n_wf

abbrev win0_0 : Pipeline.Window sig grid0 :=
  Pipeline.Window.ofSpec (Memref.whole main_v22) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x12502.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S64x12500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S32x25000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S32x50000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x50 : Shape := ⟨2, ![2048, 50]⟩
abbrev S1000000x128 : Shape := ⟨2, ![1000000, 128]⟩
abbrev S12502x128 : Shape := ⟨2, ![12502, 128]⟩
abbrev S64x128 : Shape := ⟨2, ![64, 128]⟩
abbrev S12500x64 : Shape := ⟨2, ![12500, 64]⟩
abbrev S32x128 : Shape := ⟨2, ![32, 128]⟩
abbrev S25000x32 : Shape := ⟨2, ![25000, 32]⟩
abbrev S_ : Shape := ⟨0, ![]⟩
abbrev S2048x50x1 : Shape := ⟨3, ![2048, 50, 1]⟩
abbrev S2048x50x128 : Shape := ⟨3, ![2048, 50, 128]⟩
abbrev S2048 : Shape := ⟨1, ![2048]⟩
abbrev S2048x1 : Shape := ⟨2, ![2048, 1]⟩
abbrev S2048x128 : Shape := ⟨2, ![2048, 128]⟩
abbrev S128x12502 : Shape := ⟨2, ![128, 12502]⟩
abbrev S2048x12502 : Shape := ⟨2, ![2048, 12502]⟩
abbrev S2048x12500 : Shape := ⟨2, ![2048, 12500]⟩
abbrev S128x64 : Shape := ⟨2, ![128, 64]⟩
abbrev S2048x64 : Shape := ⟨2, ![2048, 64]⟩
abbrev S64x12500 : Shape := ⟨2, ![64, 12500]⟩
abbrev S128x32 : Shape := ⟨2, ![128, 32]⟩
abbrev S2048x32 : Shape := ⟨2, ![2048, 32]⟩
abbrev S32x25000 : Shape := ⟨2, ![32, 25000]⟩
abbrev S2048x25000 : Shape := ⟨2, ![2048, 25000]⟩
abbrev S2048x50000 : Shape := ⟨2, ![2048, 50000]⟩

abbrev nBuf : Space → Nat
  | .hbm => 98
  | .vmem => 0
  | .smem => 0
  | _ => 0

abbrev bufTy : (tb : Table) → Fin (tcTables nBuf tb) → BufTy
  | .hbm, ⟨0, _⟩ => ⟨S2048x50, .i32⟩
  | .hbm, ⟨1, _⟩ => ⟨S1000000x128, .f32⟩
  | .hbm, ⟨2, _⟩ => ⟨S12502x128, .f32⟩
  | .hbm, ⟨3, _⟩ => ⟨S64x128, .f32⟩
  | .hbm, ⟨4, _⟩ => ⟨S12500x64, .f32⟩
  | .hbm, ⟨5, _⟩ => ⟨S32x128, .f32⟩
  | .hbm, ⟨6, _⟩ => ⟨S25000x32, .f32⟩
  | .hbm, ⟨7, _⟩ => ⟨S_, .i32⟩
  | .hbm, ⟨8, _⟩ => ⟨S2048x50, .i32⟩
  | .hbm, ⟨9, _⟩ => ⟨S2048x50, .i1⟩
  | .hbm, ⟨10, _⟩ => ⟨S_, .i32⟩
  | .hbm, ⟨11, _⟩ => ⟨S2048x50, .i32⟩
  | .hbm, ⟨12, _⟩ => ⟨S2048x50, .i1⟩
  | .hbm, ⟨13, _⟩ => ⟨S_, .i32⟩
  | .hbm, ⟨14, _⟩ => ⟨S2048x50, .i32⟩
  | .hbm, ⟨15, _⟩ => ⟨S2048x50, .i32⟩
  | .hbm, ⟨16, _⟩ => ⟨S2048x50, .i32⟩
  | .hbm, ⟨17, _⟩ => ⟨S2048x50x1, .i32⟩
  | .hbm, ⟨18, _⟩ => ⟨S2048x50x128, .f32⟩
  | .hbm, ⟨19, _⟩ => ⟨S2048x50x1, .i1⟩
  | .hbm, ⟨20, _⟩ => ⟨S2048x50x1, .f32⟩
  | .hbm, ⟨21, _⟩ => ⟨S2048x50x128, .f32⟩
  | .hbm, ⟨22, _⟩ => ⟨S2048x50x128, .f32⟩
  | .hbm, ⟨23, _⟩ => ⟨S2048x50, .i32⟩
  | .hbm, ⟨24, _⟩ => ⟨S_, .i32⟩
  | .hbm, ⟨25, _⟩ => ⟨S2048, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .f32⟩
  | .hbm, ⟨31, _⟩ => ⟨S_, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S128x12502, .f32⟩
  | .hbm, ⟨36, _⟩ => ⟨S2048x12502, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048x1, .f32⟩
  | .hbm, ⟨43, _⟩ => ⟨S2048x12502, .f32⟩
  | .hbm, ⟨44, _⟩ => ⟨S2048x12502, .f32⟩
  | .hbm, ⟨45, _⟩ => ⟨S2048x12502, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1, .f32⟩
  | .hbm, ⟨50, _⟩ => ⟨S2048x12502, .f32⟩
  | .hbm, ⟨51, _⟩ => ⟨S2048x12502, .f32⟩
  | .hbm, ⟨52, _⟩ => ⟨S2048x12500, .f32⟩
  | .hbm, ⟨53, _⟩ => ⟨S128x64, .f32⟩
  | .hbm, ⟨54, _⟩ => ⟨S2048x64, .f32⟩
  | .hbm, ⟨55, _⟩ => ⟨S64x12500, .f32⟩
  | .hbm, ⟨56, _⟩ => ⟨S2048x12500, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048x1, .f32⟩
  | .hbm, ⟨63, _⟩ => ⟨S2048x12500, .f32⟩
  | .hbm, ⟨64, _⟩ => ⟨S2048x12500, .f32⟩
  | .hbm, ⟨65, _⟩ => ⟨S2048x12500, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1, .f32⟩
  | .hbm, ⟨70, _⟩ => ⟨S2048x12500, .f32⟩
  | .hbm, ⟨71, _⟩ => ⟨S2048x12500, .f32⟩
  | .hbm, ⟨72, _⟩ => ⟨S2048x1, .f32⟩
  | .hbm, ⟨73, _⟩ => ⟨S2048x12500, .f32⟩
  | .hbm, ⟨74, _⟩ => ⟨S2048x12500, .f32⟩
  | .hbm, ⟨75, _⟩ => ⟨S128x32, .f32⟩
  | .hbm, ⟨76, _⟩ => ⟨S2048x32, .f32⟩
  | .hbm, ⟨77, _⟩ => ⟨S32x25000, .f32⟩
  | .hbm, ⟨78, _⟩ => ⟨S2048x25000, .f32⟩
  | .hbm, ⟨79, _⟩ => ⟨S_, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S2048x1, .f32⟩
  | .hbm, ⟨85, _⟩ => ⟨S2048x25000, .f32⟩
  | .hbm, ⟨86, _⟩ => ⟨S2048x25000, .f32⟩
  | .hbm, ⟨87, _⟩ => ⟨S2048x25000, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x1, .f32⟩
  | .hbm, ⟨92, _⟩ => ⟨S2048x25000, .f32⟩
  | .hbm, ⟨93, _⟩ => ⟨S2048x25000, .f32⟩
  | .hbm, ⟨94, _⟩ => ⟨S2048x1, .f32⟩
  | .hbm, ⟨95, _⟩ => ⟨S2048x25000, .f32⟩
  | .hbm, ⟨96, _⟩ => ⟨S2048x25000, .f32⟩
  | .hbm, ⟨97, _⟩ => ⟨S2048x50000, .f32⟩
  | _, _ => ⟨S2048x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_cst_1 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_cst : Ref sig .tc := ⟨.hbm, 57, rfl⟩
abbrev main_call1_v0 : Ref sig .tc := ⟨.hbm, 58, rfl⟩
abbrev main_call1_cst_0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_cst_1 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call2_cst : Ref sig .tc := ⟨.hbm, 79, rfl⟩
abbrev main_call2_v0 : Ref sig .tc := ⟨.hbm, 80, rfl⟩
abbrev main_call2_cst_0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_cst_1 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩

abbrev nD : Nat := 1
abbrev τ : Topo := Topo.v7x

variable {F : FTy → Type} [FloatOps F]

class Facts₀ : Prop where
  bcast_S_S2048x50 : S_.BroadcastsInDim S2048x50 (![] : Fin 0 → Fin S2048x50.rank)
  bcast_S2048x50_S2048x50x1_0_1 : S2048x50.BroadcastsInDim S2048x50x1 (![0, 1] : Fin 2 → Fin S2048x50x1.rank)
  bcast_S2048x50x1_S2048x50x128_0_1_2 : S2048x50x1.BroadcastsInDim S2048x50x128 (![0, 1, 2] : Fin 3 → Fin S2048x50x128.rank)
  natLt_1_32 : 1 < 32
  reducesTo_S2048x50_S2048_d1 : S2048x50.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x50x128_S2048x128_d1 : S2048x50x128.ReducesTo [1] S2048x128
  bcast_S2048x1_S2048x128_0_1 : S2048x1.BroadcastsInDim S2048x128 (![0, 1] : Fin 2 → Fin S2048x128.rank)
  transposes_S12502x128_S128x12502_1_0 : S12502x128.Transposes [1, 0] S128x12502
  reducesTo_S2048x12502_S2048_d1 : S2048x12502.ReducesTo [1] S2048
  bcast_S_S2048 : S_.BroadcastsInDim S2048 (![] : Fin 0 → Fin S2048.rank)
  bcast_S2048x1_S2048x12502_0_1 : S2048x1.BroadcastsInDim S2048x12502 (![0, 1] : Fin 2 → Fin S2048x12502.rank)
  slices_S2048x12502_S2048x12500_0_0 : S2048x12502.Slices ![0, 0] S2048x12500
  transposes_S64x128_S128x64_1_0 : S64x128.Transposes [1, 0] S128x64
  transposes_S12500x64_S64x12500_1_0 : S12500x64.Transposes [1, 0] S64x12500
  reducesTo_S2048x12500_S2048_d1 : S2048x12500.ReducesTo [1] S2048
  bcast_S2048x1_S2048x12500_0_1 : S2048x1.BroadcastsInDim S2048x12500 (![0, 1] : Fin 2 → Fin S2048x12500.rank)
  slices_S2048x12502_S2048x1_0_12500 : S2048x12502.Slices ![0, 12500] S2048x1
  transposes_S32x128_S128x32_1_0 : S32x128.Transposes [1, 0] S128x32
  transposes_S25000x32_S32x25000_1_0 : S25000x32.Transposes [1, 0] S32x25000
  reducesTo_S2048x25000_S2048_d1 : S2048x25000.ReducesTo [1] S2048
  bcast_S2048x1_S2048x25000_0_1 : S2048x1.BroadcastsInDim S2048x25000 (![0, 1] : Fin 2 → Fin S2048x25000.rank)
  slices_S2048x12502_S2048x1_0_12501 : S2048x12502.Slices ![0, 12501] S2048x1
  concatenates_S2048x12500_S2048x12500_S2048x25000_S2048x50000_d1 : Shape.Concatenates [S2048x12500, S2048x12500, S2048x25000] S2048x50000 1
  gather_S1000000x128_S2048x50x1_S2048x50x128_2_0_n_n_0_2_1128_wf : GatherDims.WF S1000000x128 S2048x50x1 S2048x50x128 [2] [0] [] [0] [] 2 ![1, 128]
  dot_S2048x128_S128x12502_S2048x12502_1_0_0_1_n_n_wf : DotDims.WF S2048x128 S128x12502 S2048x12502 [1] [0] [0] [1] [] []
  dot_S2048x128_S128x64_S2048x64_1_0_0_1_n_n_wf : DotDims.WF S2048x128 S128x64 S2048x64 [1] [0] [0] [1] [] []
  dot_S2048x64_S64x12500_S2048x12500_1_0_0_1_n_n_wf : DotDims.WF S2048x64 S64x12500 S2048x12500 [1] [0] [0] [1] [] []
  dot_S2048x128_S128x32_S2048x32_1_0_0_1_n_n_wf : DotDims.WF S2048x128 S128x32 S2048x32 [1] [0] [0] [1] [] []
  dot_S2048x32_S32x25000_S2048x25000_1_0_0_1_n_n_wf : DotDims.WF S2048x32 S32x25000 S2048x25000 [1] [0] [0] [1] [] []

variable [Facts₀]

def gather_S1000000x128_S2048x50x1_S2048x50x128_2_0_n_n_0_2_1128 : GatherDims S1000000x128 S2048x50x1 S2048x50x128 where
  offsetDims := [2]
  collapsedSliceDims := [0]
  operandBatchingDims := []
  startIndicesBatchingDims := []
  startIndexMap := [0]
  indexVectorDim := 2
  sliceSizes := ![1, 128]
  wf := gather_S1000000x128_S2048x50x1_S2048x50x128_2_0_n_n_0_2_1128_wf
def dot_S2048x128_S128x12502_S2048x12502_1_0_0_1_n_n : DotDims S2048x128 S128x12502 S2048x12502 where
  lhsContracting := [1]
  rhsContracting := [0]
  lhsNonContracting := [0]
  rhsNonContracting := [1]
  lhsBatch := []
  rhsBatch := []
  wf := dot_S2048x128_S128x12502_S2048x12502_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x12500_S2048x12500_1_0_0_1_n_n : DotDims S2048x64 S64x12500 S2048x12500 where
  lhsContracting := [1]
  rhsContracting := [0]
  lhsNonContracting := [0]
  rhsNonContracting := [1]
  lhsBatch := []
  rhsBatch := []
  wf := dot_S2048x64_S64x12500_S2048x12500_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x25000_S2048x25000_1_0_0_1_n_n : DotDims S2048x32 S32x25000 S2048x25000 where
  lhsContracting := [1]
  rhsContracting := [0]
  lhsNonContracting := [0]
  rhsNonContracting := [1]
  lhsBatch := []
  rhsBatch := []
  wf := dot_S2048x32_S32x25000_S2048x25000_1_0_0_1_n_n_wf

class Facts : Prop extends Facts₀ where

variable [Facts]
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«107135_j41137196761528_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«107135_j41137196761528_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.LibRowKL.lean ====
/-
  The Kullback–Leibler sum of one row, with the log-softmax written in two arrangements.

  For a row `f` of `n ≥ 1` scores let `M` be its maximum (folded from -∞), and `L = log (Σ_i exp (f i - M))`.
  The log-softmax of the row at `k` is `f k - (M + L)` in one arrangement (the normaliser `M + L` is formed first and
  subtracted once) and `(f k - M) - L` in the other (the maximum is subtracted first, the logarithm afterwards). For two
  rows `f`, `g` the row's sum is `Σ_k exp (ls g k) · (ls g k - ls f k)`, with `ls` either arrangement.

  When every score is a real number, `M` is real (a maximum of finitely many reals over a nonempty range), every
  `exp (f i - M)` is a positive real, their sum is a positive real, so `L` is real; and for reals `a - (M + L) = (a - M) - L`.
  So the two arrangements agree entry by entry, and so do the two sums. (Over the extended reals in general they do not:
  with `f k = M = +∞` the differences are of the indeterminate form.)
-/
import Mathlib
import Idealize.ShloMosaic.PureOps.Ideal
import proofs.«107135_j41137196761528_2_alg».proof.Proof.LibRealSum
import proofs.«107135_j41137196761528_2_alg».proof.Proof.LibSoftmaxRow

noncomputable section

open scoped BigOperators

namespace Cert.LibRowKL

open Idealize.ShloMosaic Cert.LibRealSum Cert.LibSoftmaxRow

variable {n : ℕ}

/-- `L`: the logarithm of the sum of the exponentials of the scores less their maximum. -/
def logNorm (f : Fin n → EReal) : EReal := Ideal.log (∑ i, Ideal.exp (f i - rowMax f))

/-- The log-softmax with the normaliser `M + L` formed first: `f k - (M + L)`. -/
def logSoftOnce (f : Fin n → EReal) (k : Fin n) : EReal := f k - (rowMax f + logNorm f)

/-- The log-softmax with the maximum subtracted first: `(f k - M) - L`. -/
def logSoftTwice (f : Fin n → EReal) (k : Fin n) : EReal := (f k - rowMax f) - logNorm f

/-- The row's sum `Σ_k exp (ls g k) · (ls g k - ls f k)` in the first arrangement. -/
def rowKLOnce (f g : Fin n → EReal) : EReal :=
  ∑ k, Ideal.exp (logSoftOnce g k) * (logSoftOnce g k - logSoftOnce f k)

/-- The same sum in the second arrangement. -/
def rowKLTwice (f g : Fin n → EReal) : EReal :=
  ∑ k, Ideal.exp (logSoftTwice g k) * (logSoftTwice g k - logSoftTwice f k)

/-- With real scores over a nonempty range, `L` is a real number: the sum of the exponentials is a positive real. -/
theorem isReal_logNorm (hn : 0 < n) (f : Fin n → EReal) (hf : ∀ k, IsReal (f k)) : IsReal (logNorm f) := by
  obtain ⟨M, hM⟩ := isReal_rowMax hn f hf
  choose a ha using hf
  unfold logNorm
  rw [hM]
  have hexp : ∀ i, Ideal.exp (f i - (M : EReal)) = ((Real.exp (a i - M) : ℝ) : EReal) := fun i => by
    rw [ha i, ← EReal.coe_sub, Ideal.exp_coe]
  have hpos : 0 < ∑ i, Real.exp (a i - M) :=
    Finset.sum_pos (fun _ _ => Real.exp_pos _) ⟨⟨0, hn⟩, Finset.mem_univ _⟩
  simp only [hexp, ← coe_finset_sum]
  rw [Ideal.log_coe, if_neg (not_le.mpr hpos)]
  exact ⟨_, rfl⟩

/-- With real scores the two arrangements of the log-softmax agree at every entry. -/
theorem logSoftOnce_eq_logSoftTwice (hn : 0 < n) (f : Fin n → EReal) (hf : ∀ k, IsReal (f k)) (k : Fin n) :
    logSoftOnce f k = logSoftTwice f k := by
  obtain ⟨M, hM⟩ := isReal_rowMax hn f hf
  obtain ⟨L, hL⟩ := isReal_logNorm hn f hf
  obtain ⟨a, ha⟩ := hf k
  unfold logSoftOnce logSoftTwice
  rw [hM, hL, ha, ← EReal.coe_add, ← EReal.coe_sub, ← EReal.coe_sub, ← EReal.coe_sub]
  exact congrArg _ (by ring)

/-- With real scores in both rows the two arrangements of the row's sum agree. -/
theorem rowKLOnce_eq_rowKLTwice (hn : 0 < n) (f g : Fin n → EReal) (hf : ∀ k, IsReal (f k)) (hg : ∀ k, IsReal (g k)) :
    rowKLOnce f g = rowKLTwice f g := by
  unfold rowKLOnce rowKLTwice
  refine Finset.sum_congr rfl fun k _ => ?_
  rw [logSoftOnce_eq_logSoftTwice hn g hg k, logSoftOnce_eq_logSoftTwice hn f hf k]

end Cert.LibRowKL

end
-- ==== Proof.LibLogSoftmaxRows.lean ====
/-
  The row-wise log-softmax of an array [R, C] and the row sums built on it, read at an entry.

  A kernel and the host compute the log-softmax of every row of an array of extended reals with different operations and in
  different arrangements. The kernel reduces each row to its maximum `M` (from the word of -∞) and recasts the maxima as a
  column; it forms `exp (x - M)`, sums it along the row, takes the logarithm `L`, ADDS `M + L` in the column, spreads that
  column over the row and subtracts once: the entry `(p, k)` is `x p k - (M p + L p)`. The host reduces each row to its
  maximum, takes the maximum with -∞ once more (which changes nothing), spreads it over the row, subtracts it, and then
  subtracts the spread logarithm of the row's sum of exponentials: the entry is `(x p k - M p) - L p`.
  On top of either, a row's sum `Σ_k exp (ls x1 p k) · (ls x1 p k - ls x0 p k)`.

  Each of these arrays is read here at an entry as the one-row function of the row's entries (the specification of the two
  arrangements and the law that joins them on real numbers are in the module on the row's sum). No finiteness is needed
  for reading: the arrays ARE these functions of their rows over all extended reals.
-/
import Mathlib
import Idealize.ShloMosaic.PureOps.Ideal
import Idealize.ShloMosaic.PureOps.Ideal.Laws
import Idealize.ShloMosaic.Lib.Pipeline.Value
import Idealize.ShloMosaic.Lib.ValueIdx
import proofs.«107135_j41137196761528_2_alg».proof.Proof.LibRowReduce
import proofs.«107135_j41137196761528_2_alg».proof.Proof.LibColBroadcast
import proofs.«107135_j41137196761528_2_alg».proof.Proof.LibRowKL

noncomputable section

open scoped BigOperators

namespace Cert.LibLogSoftmaxRows

open Idealize.ShloMosaic Idealize.ShloMosaic.ValueIdx
open Cert.LibRowKL

variable {R C : ℕ}

/-- The two spellings of "the maximum of a row folded from -∞" are one definition. -/
theorem rowMax_eq (f : Fin C → EReal) : Cert.LibRowReduce.rowMax f = Cert.LibSoftmaxRow.rowMax f := rfl

/-- A reduction along axis 1 into a vector (at least one axis is left) from the same reduction stated for the host. -/
theorem reduces_of_reducesTo (h' : (⟨2, ![R, C]⟩ : Shape).ReducesTo [1] (⟨1, ![R]⟩ : Shape)) :
    (⟨2, ![R, C]⟩ : Shape).Reduces [1] (⟨1, ![R]⟩ : Shape) :=
  let ⟨e, f⟩ := h'; ⟨e, Nat.one_pos, f⟩

/-! ## Three host broadcasts read at an entry -/

section Broadcasts
variable {α : Type}

/-- A scalar spread over a vector [R] reads the scalar. -/
theorem bcast_scalar_vec_apply (b0 : (⟨0, ![]⟩ : Shape).BroadcastsInDim (⟨1, ![R]⟩ : Shape) ![])
    (v : (⟨0, ![]⟩ : Shape).Idx → α) (p : Fin R) : broadcastInDim (⟨1, ![R]⟩ : Shape) ![] b0 v (ix1 p) = v ix0 :=
  broadcastInDim_apply _ b0 v (ix1 p) ix0 (fun a => a.elim0)

/-- A vector [R] recast as the column [R, 1] along axis 0 reads its entry `p`. -/
theorem bcast_vec_col_apply (b1 : (⟨1, ![R]⟩ : Shape).BroadcastsInDim (⟨2, ![R, 1]⟩ : Shape) ![0])
    (v : (⟨1, ![R]⟩ : Shape).Idx → α) (p : Fin R) :
    broadcastInDim (⟨2, ![R, 1]⟩ : Shape) ![0] b1 v (ix2 p (0 : Fin 1)) = v (ix1 p) := by
  refine broadcastInDim_apply _ b1 v (ix2 p (0 : Fin 1)) (ix1 p) fun a => ?_
  match a with
  | ⟨0, _⟩ =>
    show p.val = if R = 1 then 0 else p.val
    split
    · have := p.isLt; omega
    · rfl

/-- A column [R, 1] spread over [R, C] reads, at `(p, k)`, the column's entry `p`. -/
theorem bcast_col_rows_apply (b2 : (⟨2, ![R, 1]⟩ : Shape).BroadcastsInDim (⟨2, ![R, C]⟩ : Shape) ![0, 1])
    (v : (⟨2, ![R, 1]⟩ : Shape).Idx → α) (p : Fin R) (k : Fin C) :
    broadcastInDim (⟨2, ![R, C]⟩ : Shape) ![0, 1] b2 v (ix2 p k) = v (ix2 p (0 : Fin 1)) := by
  refine broadcastInDim_apply _ b2 v (ix2 p k) (ix2 p (0 : Fin 1)) fun a => ?_
  match a with
  | ⟨0, _⟩ =>
    show p.val = if R = 1 then 0 else p.val
    split
    · have := p.isLt; omega
    · rfl
  | ⟨1, _⟩ => rfl

end Broadcasts

/-! ## The kernel's arrangement -/

section Kernel

variable (x x0 x1 : FVec Ideal ⟨2, ![R, C]⟩ .f32)
  (hr : (⟨2, ![R, C]⟩ : Shape).Reduces [1] (⟨1, ![R]⟩ : Shape)) (hφ : FKind.Formats .f32)
  (hmax : (0xFF800000#32 : BitVec 32) = FKind.maximumf.neutral .f32 hφ)
  (hadd : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- The rows' maxima as a column. -/
def kMaxCol : FVec Ideal ⟨2, ![R, 1]⟩ .f32 :=
  shapeCast ⟨2, ![R, 1]⟩ (multiReduction (F := Ideal) .maximumf [1] ⟨1, ![R]⟩ x 0xFF800000#32 hr hφ hmax) hc

/-- The rows' normalisers `M + L` as a column. -/
def kNormCol : FVec Ideal ⟨2, ![R, 1]⟩ .f32 :=
  addf (F := Ideal) (kMaxCol x hr hφ hmax hc)
    (log (F := Ideal) (shapeCast ⟨2, ![R, 1]⟩
      (multiReduction (F := Ideal) .add [1] ⟨1, ![R]⟩
        (exp (F := Ideal) (subf (F := Ideal) x (broadcastTo ⟨2, ![R, C]⟩ (kMaxCol x hr hφ hmax hc) hb))) 0x00000000#32 hr hφ hadd) hc))

/-- The kernel's log-softmax: every entry less its row's normaliser. -/
def kLogSoftmax : FVec Ideal ⟨2, ![R, C]⟩ .f32 :=
  subf (F := Ideal) x (broadcastTo ⟨2, ![R, C]⟩ (kNormCol x hr hφ hmax hadd hc hb) hb)

/-- The kernel's row sums as a column. -/
def kRowKL : FVec Ideal ⟨2, ![R, 1]⟩ .f32 :=
  shapeCast ⟨2, ![R, 1]⟩
    (multiReduction (F := Ideal) .add [1] ⟨1, ![R]⟩
      (mulf (F := Ideal) (exp (F := Ideal) (kLogSoftmax x1 hr hφ hmax hadd hc hb))
        (subf (F := Ideal) (kLogSoftmax x1 hr hφ hmax hadd hc hb) (kLogSoftmax x0 hr hφ hmax hadd hc hb)))
      0x00000000#32 hr hφ hadd) hc

theorem kMaxCol_apply (p : Fin R) :
    kMaxCol x hr hφ hmax hc (ix2 p (0 : Fin 1)) = Cert.LibSoftmaxRow.rowMax fun k => x (ix2 p k) :=
  (Cert.LibRowReduce.shapeCast_col_apply _ hc p).trans (Cert.LibRowReduce.multiReduction_max_row x hr hφ hmax p)

theorem kNormCol_apply (p : Fin R) :
    kNormCol x hr hφ hmax hadd hc hb (ix2 p (0 : Fin 1))
      = Cert.LibSoftmaxRow.rowMax (fun k => x (ix2 p k)) + logNorm (fun k => x (ix2 p k)) := by
  refine congrArg₂ (· + ·) (kMaxCol_apply x hr hφ hmax hc p) ?_
  refine congrArg Ideal.log ?_
  refine (Cert.LibRowReduce.shapeCast_col_apply _ hc p).trans ?_
  refine (Cert.LibRowReduce.multiReduction_add_row _ hr hφ hadd p).trans ?_
  refine Finset.sum_congr rfl fun k _ => ?_
  refine congrArg Ideal.exp ?_
  refine congrArg (x (ix2 p k) - ·) ?_
  exact (Cert.LibColBroadcast.broadcastTo_a1_ab_apply _ hb p k).trans (kMaxCol_apply x hr hφ hmax hc p)

/-- The kernel's log-softmax at `(p, k)` is the one-row function with the normaliser formed first. -/
theorem kLogSoftmax_apply (p : Fin R) (k : Fin C) :
    kLogSoftmax x hr hφ hmax hadd hc hb (ix2 p k) = logSoftOnce (fun j => x (ix2 p j)) k := by
  refine congrArg (x (ix2 p k) - ·) ?_
  exact (Cert.LibColBroadcast.broadcastTo_a1_ab_apply _ hb p k).trans (kNormCol_apply x hr hφ hmax hadd hc hb p)

/-- The kernel's row sum of row `p` is the row's sum in the first arrangement. -/
theorem kRowKL_apply (p : Fin R) :
    kRowKL x0 x1 hr hφ hmax hadd hc hb (ix2 p (0 : Fin 1))
      = rowKLOnce (fun k => x0 (ix2 p k)) (fun k => x1 (ix2 p k)) := by
  refine (Cert.LibRowReduce.shapeCast_col_apply _ hc p).trans ?_
  refine (Cert.LibRowReduce.multiReduction_add_row _ hr hφ hadd p).trans ?_
  refine Finset.sum_congr rfl fun k _ => ?_
  show Ideal.exp (kLogSoftmax x1 hr hφ hmax hadd hc hb (ix2 p k))
      * (kLogSoftmax x1 hr hφ hmax hadd hc hb (ix2 p k) - kLogSoftmax x0 hr hφ hmax hadd hc hb (ix2 p k)) = _
  rw [kLogSoftmax_apply x1 hr hφ hmax hadd hc hb p k, kLogSoftmax_apply x0 hr hφ hmax hadd hc hb p k]

end Kernel

/-! ## The host's arrangement -/

section Host

variable (x x0 x1 : FVec Ideal ⟨2, ![R, C]⟩ .f32)
  (h' : (⟨2, ![R, C]⟩ : Shape).ReducesTo [1] (⟨1, ![R]⟩ : Shape)) (hu : 0 < (⟨0, ![]⟩ : Shape).numel)
  (b0 : (⟨0, ![]⟩ : Shape).BroadcastsInDim (⟨1, ![R]⟩ : Shape) ![])
  (b1 : (⟨1, ![R]⟩ : Shape).BroadcastsInDim (⟨2, ![R, 1]⟩ : Shape) ![0])
  (b2 : (⟨2, ![R, 1]⟩ : Shape).BroadcastsInDim (⟨2, ![R, C]⟩ : Shape) ![0, 1])

/-- Every entry replaced by its row's maximum. -/
def hMaxSpread : FVec Ideal ⟨2, ![R, C]⟩ .f32 :=
  broadcastInDim ⟨2, ![R, C]⟩ ![0, 1] b2 (broadcastInDim ⟨2, ![R, 1]⟩ ![0] b1
    (maximumf (F := Ideal) (broadcastInDim ⟨1, ![R]⟩ ![] b0 (constant (F := Ideal) ⟨0, ![]⟩ .f32 0xFF800000#32))
      (Host.reduce FloatOps.maximumf x (constant (F := Ideal) ⟨0, ![]⟩ .f32 0xFF800000#32) h' hu)))

/-- Every entry less its row's maximum. -/
def hShifted : FVec Ideal ⟨2, ![R, C]⟩ .f32 := subf (F := Ideal) x (hMaxSpread x h' hu b0 b1 b2)

/-- The host's log-softmax. -/
def hLogSoftmax : FVec Ideal ⟨2, ![R, C]⟩ .f32 :=
  subf (F := Ideal) (hShifted x h' hu b0 b1 b2)
    (broadcastInDim ⟨2, ![R, C]⟩ ![0, 1] b2 (Host.log (F := Ideal) (broadcastInDim ⟨2, ![R, 1]⟩ ![0] b1
      (Host.reduceAdd (F := Ideal) (Host.exp (F := Ideal) (hShifted x h' hu b0 b1 b2))
        (constant (F := Ideal) ⟨0, ![]⟩ .f32 0x00000000#32) h' hu))))

/-- The host's row sums. -/
def hRowKL : FVec Ideal ⟨1, ![R]⟩ .f32 :=
  Host.reduceAdd (F := Ideal)
    (mulf (F := Ideal) (Host.exp (F := Ideal) (hLogSoftmax x1 h' hu b0 b1 b2))
      (subf (F := Ideal) (hLogSoftmax x1 h' hu b0 b1 b2) (hLogSoftmax x0 h' hu b0 b1 b2)))
    (constant (F := Ideal) ⟨0, ![]⟩ .f32 0x00000000#32) h' hu

theorem hMaxSpread_apply (p : Fin R) (k : Fin C) :
    hMaxSpread x h' hu b0 b1 b2 (ix2 p k) = Cert.LibSoftmaxRow.rowMax fun j => x (ix2 p j) := by
  refine (bcast_col_rows_apply b2 _ p k).trans ((bcast_vec_col_apply b1 _ p).trans ?_)
  show max (broadcastInDim (⟨1, ![R]⟩ : Shape) ![] b0 (constant (F := Ideal) ⟨0, ![]⟩ .f32 0xFF800000#32) (ix1 p))
      (Host.reduce FloatOps.maximumf x (constant (F := Ideal) ⟨0, ![]⟩ .f32 0xFF800000#32) h' hu (ix1 p)) = _
  rw [bcast_scalar_vec_apply b0 _ p]
  refine (Cert.LibRowReduce.max_negInf _).trans ?_
  exact Cert.LibRowReduce.hostReduce_max_row x _ (fun _ => rfl) h' (reduces_of_reducesTo h') hu p

theorem hShifted_apply (p : Fin R) (k : Fin C) :
    hShifted x h' hu b0 b1 b2 (ix2 p k) = x (ix2 p k) - Cert.LibSoftmaxRow.rowMax fun j => x (ix2 p j) :=
  congrArg (x (ix2 p k) - ·) (hMaxSpread_apply x h' hu b0 b1 b2 p k)

/-- The host's log-softmax at `(p, k)` is the one-row function with the maximum subtracted first. -/
theorem hLogSoftmax_apply (p : Fin R) (k : Fin C) :
    hLogSoftmax x h' hu b0 b1 b2 (ix2 p k) = logSoftTwice (fun j => x (ix2 p j)) k := by
  refine congrArg₂ (· - ·) (hShifted_apply x h' hu b0 b1 b2 p k) ?_
  refine (bcast_col_rows_apply b2 _ p k).trans ?_
  refine congrArg Ideal.log ?_
  refine (bcast_vec_col_apply b1 _ p).trans ?_
  refine (Cert.LibRowReduce.hostReduceAdd_row _ _ (fun _ => Ideal.ofBits_zero_f32) h' (reduces_of_reducesTo h') hu p).trans ?_
  refine Finset.sum_congr rfl fun j _ => ?_
  exact congrArg Ideal.exp (hShifted_apply x h' hu b0 b1 b2 p j)

/-- The host's row sum of row `p` is the row's sum in the second arrangement. -/
theorem hRowKL_apply (p : Fin R) :
    hRowKL x0 x1 h' hu b0 b1 b2 (ix1 p) = rowKLTwice (fun k => x0 (ix2 p k)) (fun k => x1 (ix2 p k)) := by
  refine (Cert.LibRowReduce.hostReduceAdd_row _ _ (fun _ => Ideal.ofBits_zero_f32) h' (reduces_of_reducesTo h') hu p).trans ?_
  refine Finset.sum_congr rfl fun k _ => ?_
  show Ideal.exp (hLogSoftmax x1 h' hu b0 b1 b2 (ix2 p k))
      * (hLogSoftmax x1 h' hu b0 b1 b2 (ix2 p k) - hLogSoftmax x0 h' hu b0 b1 b2 (ix2 p k)) = _
  rw [hLogSoftmax_apply x1 h' hu b0 b1 b2 p k, hLogSoftmax_apply x0 h' hu b0 b1 b2 p k]

end Host

/-! ## The two arrangements on real entries -/

/-- With every entry of both arrays a real number and at least one column, the kernel's column of row sums and the host's
    vector of row sums agree row by row. -/
theorem kRowKL_eq_hRowKL (hC : 0 < C) (x0 x1 : FVec Ideal ⟨2, ![R, C]⟩ .f32)
    (hx0 : ∀ i, Cert.LibRealSum.IsReal (x0 i)) (hx1 : ∀ i, Cert.LibRealSum.IsReal (x1 i))
    (hr : (⟨2, ![R, C]⟩ : Shape).Reduces [1] (⟨1, ![R]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩)
    (hb : (⟨2, ![R, 1]⟩ : Shape).Broadcasts ⟨2, ![R, C]⟩)
    (h' : (⟨2, ![R, C]⟩ : Shape).ReducesTo [1] (⟨1, ![R]⟩ : Shape)) (hu : 0 < (⟨0, ![]⟩ : Shape).numel)
    (b0 : (⟨0, ![]⟩ : Shape).BroadcastsInDim (⟨1, ![R]⟩ : Shape) ![])
    (b1 : (⟨1, ![R]⟩ : Shape).BroadcastsInDim (⟨2, ![R, 1]⟩ : Shape) ![0])
    (b2 : (⟨2, ![R, 1]⟩ : Shape).BroadcastsInDim (⟨2, ![R, C]⟩ : Shape) ![0, 1]) (p : Fin R) :
    kRowKL x0 x1 hr hφ hmax hadd hc hb (ix2 p (0 : Fin 1)) = hRowKL x0 x1 h' hu b0 b1 b2 (ix1 p) := by
  rw [kRowKL_apply, hRowKL_apply]
  exact rowKLOnce_eq_rowKLTwice hC _ _ (fun k => hx0 _) (fun k => hx1 _)

end Cert.LibLogSoftmaxRows

end
-- ==== Proof.LibLogSoftmaxShift.lean ====
/-
  The row-wise log-softmax of an array [R, C] in the arrangement "subtract the maximum, then subtract the logarithm",
  as a kernel computes it with lane reductions, read at an entry.

  The kernel reduces each row to its maximum `M` (from the word of -∞), recasts the maxima as a column, spreads it over
  the row and subtracts: `s = x - M`. It sums `exp s` along the row, recasts the sums as a column, takes the logarithm
  `L`, spreads it over the row and subtracts again: the entry `(p, k)` is `(x p k - M p) - L p`. That is the one-row
  function `logSoftTwice` of the row's entries, over all extended reals: no finiteness is used.
-/
import Mathlib
import Idealize.ShloMosaic.PureOps.Ideal
import Idealize.ShloMosaic.PureOps.Ideal.Laws
import Idealize.ShloMosaic.Lib.Pipeline.Value
import Idealize.ShloMosaic.Lib.ValueIdx
import proofs.«107135_j41137196761528_2_alg».proof.Proof.LibRowReduce
import proofs.«107135_j41137196761528_2_alg».proof.Proof.LibColBroadcast
import proofs.«107135_j41137196761528_2_alg».proof.Proof.LibRowKL
import proofs.«107135_j41137196761528_2_alg».proof.Proof.LibLogSoftmaxRows

noncomputable section

open scoped BigOperators

namespace Cert.LibLogSoftmaxShift

open Idealize.ShloMosaic Idealize.ShloMosaic.ValueIdx
open Cert.LibRowKL Cert.LibLogSoftmaxRows

variable {R C : ℕ}

variable (x : FVec Ideal ⟨2, ![R, C]⟩ .f32)
  (hr : (⟨2, ![R, C]⟩ : Shape).Reduces [1] (⟨1, ![R]⟩ : Shape)) (hφ : FKind.Formats .f32)
  (hmax : (0xFF800000#32 : BitVec 32) = FKind.maximumf.neutral .f32 hφ)
  (hadd : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- Every entry less its row's maximum. -/
def kShifted : FVec Ideal ⟨2, ![R, C]⟩ .f32 :=
  subf (F := Ideal) x (broadcastTo ⟨2, ![R, C]⟩ (kMaxCol x hr hφ hmax hc) hb)

/-- The logarithms of the rows' sums of exponentials, as a column. -/
def kLogCol : FVec Ideal ⟨2, ![R, 1]⟩ .f32 :=
  log (F := Ideal) (shapeCast ⟨2, ![R, 1]⟩
    (multiReduction (F := Ideal) .add [1] ⟨1, ![R]⟩ (exp (F := Ideal) (kShifted x hr hφ hmax hc hb)) 0x00000000#32 hr hφ hadd) hc)

/-- The kernel's log-softmax with the maximum subtracted first. -/
def kLogSoftmaxShift : FVec Ideal ⟨2, ![R, C]⟩ .f32 :=
  subf (F := Ideal) (kShifted x hr hφ hmax hc hb) (broadcastTo ⟨2, ![R, C]⟩ (kLogCol x hr hφ hmax hadd hc hb) hb)

theorem kShifted_apply (p : Fin R) (k : Fin C) :
    kShifted x hr hφ hmax hc hb (ix2 p k) = x (ix2 p k) - Cert.LibSoftmaxRow.rowMax fun j => x (ix2 p j) := by
  refine congrArg (x (ix2 p k) - ·) ?_
  exact (Cert.LibColBroadcast.broadcastTo_a1_ab_apply _ hb p k).trans (kMaxCol_apply x hr hφ hmax hc p)

theorem kLogCol_apply (p : Fin R) :
    kLogCol x hr hφ hmax hadd hc hb (ix2 p (0 : Fin 1)) = logNorm fun j => x (ix2 p j) := by
  refine congrArg Ideal.log ?_
  refine (Cert.LibRowReduce.shapeCast_col_apply _ hc p).trans ?_
  refine (Cert.LibRowReduce.multiReduction_add_row _ hr hφ hadd p).trans ?_
  refine Finset.sum_congr rfl fun k _ => ?_
  exact congrArg Ideal.exp (kShifted_apply x hr hφ hmax hc hb p k)

/-- The kernel's log-softmax at `(p, k)` is the one-row function with the maximum subtracted first. -/
theorem kLogSoftmaxShift_apply (p : Fin R) (k : Fin C) :
    kLogSoftmaxShift x hr hφ hmax hadd hc hb (ix2 p k) = logSoftTwice (fun j => x (ix2 p j)) k := by
  refine congrArg₂ (· - ·) (kShifted_apply x hr hφ hmax hc hb p k) ?_
  exact (Cert.LibColBroadcast.broadcastTo_a1_ab_apply _ hb p k).trans (kLogCol_apply x hr hφ hmax hadd hc hb p)

end Cert.LibLogSoftmaxShift

end
-- ==== Proof.LibAdaptiveRow.lean ====
/-
  One row of a two-level adaptive log-softmax, as a function of the row of pooled features.

  A row `p` of `K` features is scored against a head matrix `A1 : [K, nh]`: the head scores are `p · A1`, and their
  log-softmax `hl` gives the first `n0` output lanes directly; two further head entries, at columns `c0` and `c1`, are the
  log-probabilities of two clusters. Each cluster has a projection `[K, H]` followed by an output matrix `[H, n]`: its scores
  are `(p · Ap) · Ao`, and the cluster's lanes hold the log-softmax of those scores plus the cluster's log-probability.
  The output row of width `w = n0 + n1 + n2` is the head part, then cluster 0's lanes, then cluster 1's.

  Every entry of row `r` of the result reads only row `r` of the pooled array: the statement `outRow_congr`, which is what
  lets a block of rows be computed on its own. Nothing here needs finiteness: these are definitions over the extended
  reals and a congruence.
-/
import Mathlib
import Idealize.ShloMosaic.PureOps.Ideal
import Idealize.ShloMosaic.Lib.ValueIdx
import proofs.«107135_j41137196761528_2_alg».proof.Proof.LibRowKL

noncomputable section

open scoped BigOperators

namespace Cert.LibAdaptiveRow

open Idealize.ShloMosaic Idealize.ShloMosaic.ValueIdx Cert.LibRowKL

variable {R R' K H0 H1 nh n0 n1 n2 w : ℕ}

/-- Entry `(r, j)` of the product `P · A`. -/
def prodAt {N : ℕ} (P : (⟨2, ![R, K]⟩ : Shape).Idx → EReal) (A : (⟨2, ![K, N]⟩ : Shape).Idx → EReal) (r : Fin R) (j : Fin N) :
    EReal := ∑ k : Fin K, P (ix2 r k) * A (ix2 k j)

/-- The log-softmax of row `r` of `P · A`. -/
def headRow {N : ℕ} (P : (⟨2, ![R, K]⟩ : Shape).Idx → EReal) (A : (⟨2, ![K, N]⟩ : Shape).Idx → EReal) (r : Fin R) :
    Fin N → EReal := logSoftTwice (prodAt P A r)

/-- The log-softmax of row `r` of `(P · Ap) · Ao`. -/
def tailRow {H N : ℕ} (P : (⟨2, ![R, K]⟩ : Shape).Idx → EReal) (Ap : (⟨2, ![K, H]⟩ : Shape).Idx → EReal)
    (Ao : (⟨2, ![H, N]⟩ : Shape).Idx → EReal) (r : Fin R) : Fin N → EReal :=
  logSoftTwice fun j => ∑ q : Fin H, prodAt P Ap r q * Ao (ix2 q j)

/-- Row `r`, lane `l` of the adaptive log-softmax. -/
def outRow (hw : w = n0 + n1 + n2) (hn0 : n0 ≤ nh) (c0 c1 : Fin nh)
    (P : (⟨2, ![R, K]⟩ : Shape).Idx → EReal) (A1 : (⟨2, ![K, nh]⟩ : Shape).Idx → EReal)
    (A2 : (⟨2, ![K, H0]⟩ : Shape).Idx → EReal) (A3 : (⟨2, ![H0, n1]⟩ : Shape).Idx → EReal)
    (A4 : (⟨2, ![K, H1]⟩ : Shape).Idx → EReal) (A5 : (⟨2, ![H1, n2]⟩ : Shape).Idx → EReal)
    (r : Fin R) (l : Fin w) : EReal :=
  if h0 : l.val < n0 then headRow P A1 r ⟨l.val, lt_of_lt_of_le h0 hn0⟩
  else if h1 : l.val < n0 + n1 then tailRow P A2 A3 r ⟨l.val - n0, by omega⟩ + headRow P A1 r c0
  else tailRow P A4 A5 r ⟨l.val - (n0 + n1), by have := l.isLt; omega⟩ + headRow P A1 r c1

theorem prodAt_congr {N : ℕ} {P : (⟨2, ![R, K]⟩ : Shape).Idx → EReal} {P' : (⟨2, ![R', K]⟩ : Shape).Idx → EReal}
    (A : (⟨2, ![K, N]⟩ : Shape).Idx → EReal) {r : Fin R} {r' : Fin R'} (h : ∀ k : Fin K, P (ix2 r k) = P' (ix2 r' k)) :
    prodAt P A r = prodAt P' A r' := by
  funext j
  unfold prodAt
  exact Finset.sum_congr rfl fun k _ => by rw [h k]

/-- The result's row `r` reads only row `r` of the pooled array. -/
theorem outRow_congr (hw : w = n0 + n1 + n2) (hn0 : n0 ≤ nh) (c0 c1 : Fin nh)
    {P : (⟨2, ![R, K]⟩ : Shape).Idx → EReal} {P' : (⟨2, ![R', K]⟩ : Shape).Idx → EReal}
    (A1 : (⟨2, ![K, nh]⟩ : Shape).Idx → EReal)
    (A2 : (⟨2, ![K, H0]⟩ : Shape).Idx → EReal) (A3 : (⟨2, ![H0, n1]⟩ : Shape).Idx → EReal)
    (A4 : (⟨2, ![K, H1]⟩ : Shape).Idx → EReal) (A5 : (⟨2, ![H1, n2]⟩ : Shape).Idx → EReal)
    {r : Fin R} {r' : Fin R'} (h : ∀ k : Fin K, P (ix2 r k) = P' (ix2 r' k)) :
    outRow hw hn0 c0 c1 P A1 A2 A3 A4 A5 r = outRow hw hn0 c0 c1 P' A1 A2 A3 A4 A5 r' := by
  funext l
  unfold outRow headRow tailRow
  rw [prodAt_congr A1 h, prodAt_congr A2 h, prodAt_congr A4 h]

/-- A head lane. -/
theorem outRow_head (hw : w = n0 + n1 + n2) (hn0 : n0 ≤ nh) (c0 c1 : Fin nh)
    (P : (⟨2, ![R, K]⟩ : Shape).Idx → EReal) (A1 : (⟨2, ![K, nh]⟩ : Shape).Idx → EReal)
    (A2 : (⟨2, ![K, H0]⟩ : Shape).Idx → EReal) (A3 : (⟨2, ![H0, n1]⟩ : Shape).Idx → EReal)
    (A4 : (⟨2, ![K, H1]⟩ : Shape).Idx → EReal) (A5 : (⟨2, ![H1, n2]⟩ : Shape).Idx → EReal)
    (r : Fin R) (l : Fin w) (j : Fin nh) (h0 : l.val < n0) (hj : j.val = l.val) :
    outRow hw hn0 c0 c1 P A1 A2 A3 A4 A5 r l = headRow P A1 r j := by
  unfold outRow
  rw [dif_pos h0]
  exact congrArg (headRow P A1 r) (Fin.ext hj.symm)

/-- A lane of cluster 0. -/
theorem outRow_tail0 (hw : w = n0 + n1 + n2) (hn0 : n0 ≤ nh) (c0 c1 : Fin nh)
    (P : (⟨2, ![R, K]⟩ : Shape).Idx → EReal) (A1 : (⟨2, ![K, nh]⟩ : Shape).Idx → EReal)
    (A2 : (⟨2, ![K, H0]⟩ : Shape).Idx → EReal) (A3 : (⟨2, ![H0, n1]⟩ : Shape).Idx → EReal)
    (A4 : (⟨2, ![K, H1]⟩ : Shape).Idx → EReal) (A5 : (⟨2, ![H1, n2]⟩ : Shape).Idx → EReal)
    (r : Fin R) (l : Fin w) (q : Fin n1) (hl : l.val = n0 + q.val) :
    outRow hw hn0 c0 c1 P A1 A2 A3 A4 A5 r l = tailRow P A2 A3 r q + headRow P A1 r c0 := by
  unfold outRow
  have hq := q.isLt
  rw [dif_neg (by omega), dif_pos (by omega)]
  exact congrArg (fun k => tailRow P A2 A3 r k + headRow P A1 r c0) (Fin.ext (by show l.val - n0 = q.val; omega))

/-- A lane of cluster 1. -/
theorem outRow_tail1 (hw : w = n0 + n1 + n2) (hn0 : n0 ≤ nh) (c0 c1 : Fin nh)
    (P : (⟨2, ![R, K]⟩ : Shape).Idx → EReal) (A1 : (⟨2, ![K, nh]⟩ : Shape).Idx → EReal)
    (A2 : (⟨2, ![K, H0]⟩ : Shape).Idx → EReal) (A3 : (⟨2, ![H0, n1]⟩ : Shape).Idx → EReal)
    (A4 : (⟨2, ![K, H1]⟩ : Shape).Idx → EReal) (A5 : (⟨2, ![H1, n2]⟩ : Shape).Idx → EReal)
    (r : Fin R) (l : Fin w) (q : Fin n2) (hl : l.val = n0 + n1 + q.val) :
    outRow hw hn0 c0 c1 P A1 A2 A3 A4 A5 r l = tailRow P A4 A5 r q + headRow P A1 r c1 := by
  unfold outRow
  rw [dif_neg (by omega), dif_neg (by omega)]
  exact congrArg (fun k => tailRow P A4 A5 r k + headRow P A1 r c1) (Fin.ext (by show l.val - (n0 + n1) = q.val; omega))

/-- Two rows of pooled features that agree entry by entry, against equal weights, at lanes of equal value, give the same
    output entry. -/
theorem outRow_congr_all (hw : w = n0 + n1 + n2) (hn0 : n0 ≤ nh) (c0 c1 : Fin nh)
    {P : (⟨2, ![R, K]⟩ : Shape).Idx → EReal} {P' : (⟨2, ![R', K]⟩ : Shape).Idx → EReal}
    {A1 A1' : (⟨2, ![K, nh]⟩ : Shape).Idx → EReal}
    {A2 A2' : (⟨2, ![K, H0]⟩ : Shape).Idx → EReal} {A3 A3' : (⟨2, ![H0, n1]⟩ : Shape).Idx → EReal}
    {A4 A4' : (⟨2, ![K, H1]⟩ : Shape).Idx → EReal} {A5 A5' : (⟨2, ![H1, n2]⟩ : Shape).Idx → EReal}
    {r : Fin R} {r' : Fin R'} {l l' : Fin w} (h : ∀ k : Fin K, P (ix2 r k) = P' (ix2 r' k))
    (h1 : A1 = A1') (h2 : A2 = A2') (h3 : A3 = A3') (h4 : A4 = A4') (h5 : A5 = A5') (hl : l.val = l'.val) :
    outRow hw hn0 c0 c1 P A1 A2 A3 A4 A5 r l = outRow hw hn0 c0 c1 P' A1' A2' A3' A4' A5' r' l' := by
  subst h1 h2 h3 h4 h5
  obtain rfl : l = l' := Fin.ext hl
  exact congrFun (outRow_congr hw hn0 c0 c1 A1 A2 A3 A4 A5 h) l

end Cert.LibAdaptiveRow

end
-- ==== Proof.KernelPayload.lean ====
/-
  What the kernel's body stores, entry by entry, over the extended reals.

  The body reads a block `x0` of 32 rows of pooled features [32, 128] and five weight matrices, already transposed to
  [K, N]: the head `x1` [128, 12502], the two projections `x2` [128, 64], `x4` [128, 32] and the two output matrices `x3`
  [64, 12500], `x5` [32, 25000]. It stores three pieces of its output block [32, 50000]:
    * lanes [0, 12500): the first 12500 entries of the log-softmax `hl` of the head scores `x0 · x1`;
    * lanes [12500, 25000): the log-softmax of `(x0 · x2) · x3` plus `hl` at column 12500;
    * lanes [25000, 50000): the log-softmax of `(x0 · x4) · x5` plus `hl` at column 12501.
  Each log-softmax is computed as `(s - M) - log Σ exp (s - M)` with `M` the row's maximum. A product into the zero
  accumulator is the plain sum over the contracted axis, a narrowing of the format is the identity, and a shape cast to
  the same shape changes nothing; so each stored entry is the corresponding entry of `LibAdaptiveRow`'s row functions
  of row `p` of `x0`. No finiteness is used.
-/
import proofs.«107135_j41137196761528_2_alg».proof.Proof.Gen.KernelIdeal.Skeleton
import Idealize.ShloMosaic.Lib.Pipeline.Value
import Idealize.ShloMosaic.Lib.ValueIdx
import Idealize.ShloMosaic.PureOps.Ideal.Laws
import proofs.«107135_j41137196761528_2_alg».proof.Proof.LibDotForms
import proofs.«107135_j41137196761528_2_alg».proof.Proof.LibLogSoftmaxShift
import proofs.«107135_j41137196761528_2_alg».proof.Proof.LibAdaptiveRow

noncomputable section

open scoped BigOperators

namespace Cert.KernelIdeal.Payload

open Cert.KernelIdeal Cert.KernelIdeal.Gen Idealize.ShloMosaic Idealize.ShloMosaic.ValueIdx
open Cert.LibAdaptiveRow Cert.LibLogSoftmaxShift Cert.LibRowKL

/-- Entry `(p, q)` of a product into the zero accumulator whose dimension numbers are the plain ones. -/
theorem matmul_zero_apply {M K N : ℕ} {φ₁ φ₂ : FTy} (d : DotDims ⟨2, ![M, K]⟩ ⟨2, ![K, N]⟩ ⟨2, ![M, N]⟩)
    (hd : d = DotDims.plain M K N) (a : FVec Ideal ⟨2, ![M, K]⟩ φ₁) (b : FVec Ideal ⟨2, ![K, N]⟩ φ₂) (p : Fin M) (q : Fin N) :
    matmul (F := Ideal) d none a b (constant ⟨2, ![M, N]⟩ .f32 0x00000000#32) (ix2 p q) = ∑ k : Fin K, a (ix2 p k) * b (ix2 k q) := by
  subst hd
  exact Cert.LibDotForms.matmul_plain_prec none a b p q

variable (x0 : FVec Ideal S32x128 .bf16) (x1 : FVec Ideal S128x12502 .bf16) (x2 : FVec Ideal S128x64 .bf16)
  (x3 : FVec Ideal S64x12500 .bf16) (x4 : FVec Ideal S128x32 .bf16) (x5 : FVec Ideal S32x25000 .bf16)

/-- The block of pooled rows as the body uses it is the block as loaded. -/
theorem pay2_eq : k0_pay2 (F := Ideal) x0 = x0 := shapeCast_self _ _

/-! ## The head -/

/-- The head scores. -/
def headScores : FVec Ideal S32x12502 .f32 :=
  matmul (F := Ideal) dot_S32x128_S128x12502_S32x12502_1_0_0_1_n_n none (k0_pay2 x0 : FVec Ideal S32x128 .bf16)
    (shapeCast S128x12502 x1 shapeCasts_S128x12502_S128x12502 : FVec Ideal S128x12502 .bf16) (constant S32x12502 .f32 0x00000000#32)

theorem headScores_apply (p : Fin 32) (j : Fin 12502) : headScores x0 x1 (ix2 p j) = prodAt x0 x1 p j := by
  refine (matmul_zero_apply _ rfl _ _ p j).trans ?_
  unfold prodAt
  rw [pay2_eq, shapeCast_self]

theorem pay3_eq : k0_pay3 (F := Ideal) x0 x1
    = kLogSoftmaxShift (R := 32) (C := 12502) (headScores x0 x1) reduces_S32x12502_S32 (.inl rfl) rfl rfl
        shapeCasts_S32_S32x1 broadcasts_S32x1_S32x12502 := rfl

/-- The head's log-softmax at row `p`, column `j`. -/
theorem pay3_apply (p : Fin 32) (j : Fin 12502) : k0_pay3 (F := Ideal) x0 x1 (ix2 p j) = headRow x0 x1 p j := by
  rw [pay3_eq]
  refine (kLogSoftmaxShift_apply _ _ _ _ _ _ _ p j).trans ?_
  unfold headRow
  exact congrArg (fun f => logSoftTwice f j) (funext fun j' => headScores_apply x0 x1 p j')

/-- The first stored piece: the head's first 12500 columns. -/
theorem pay4_apply (p : Fin 32) (q : Fin 12500) :
    k0_pay4 (F := Ideal) x0 x1 (ix2 p q) = headRow x0 x1 p ⟨q.val, by have := q.isLt; omega⟩ := by
  refine Eq.trans ?_ (pay3_apply x0 x1 p ⟨q.val, by have := q.isLt; omega⟩)
  unfold k0_pay4
  refine extractStridedSlice_apply _ _ _ _ _ fun a => ?_
  match a with
  | ⟨0, _⟩ => show p.val = 0 + p.val; omega
  | ⟨1, _⟩ => show q.val = 0 + q.val; omega

/-! ## A cluster: a projection, an output matrix, a log-softmax, and the cluster's head entry added -/

/-- The column of the head's log-softmax at column `c`, spread over `n` lanes, reads the head entry of its row. -/
theorem head_col_spread_apply {n : ℕ} (c : ℕ) (hc : c < 12502) (v16 : FVec Ideal S32x12502 .f32)
    (hs : S32x12502.Slices ![0, c] S32x1) (hb : S32x1.Broadcasts ⟨2, ![32, n]⟩) (p : Fin 32) (q : Fin n) :
    broadcastTo ⟨2, ![32, n]⟩ (extractStridedSlice S32x1 ![0, c] v16 hs) hb (ix2 p q) = v16 (ix2 p ⟨c, hc⟩) := by
  refine (Cert.LibColBroadcast.broadcastTo_a1_ab_apply _ hb p q).trans ?_
  refine extractStridedSlice_apply _ _ _ _ _ fun a => ?_
  match a with
  | ⟨0, _⟩ => show p.val = 0 + p.val; omega
  | ⟨1, _⟩ => show c = c + 0; omega

/-- Cluster 0's scores. -/
def tail0Scores : FVec Ideal S32x12500 .f32 :=
  matmul (F := Ideal) dot_S32x64_S64x12500_S32x12500_1_0_0_1_n_n none
    (truncf .bf16 (matmul (F := Ideal) dot_S32x128_S128x64_S32x64_1_0_0_1_n_n none (k0_pay2 x0 : FVec Ideal S32x128 .bf16)
      (shapeCast S128x64 x2 shapeCasts_S128x64_S128x64 : FVec Ideal S128x64 .bf16) (constant S32x64 .f32 0x00000000#32)) bitsLt_bf16_f32)
    (shapeCast S64x12500 x3 shapeCasts_S64x12500_S64x12500 : FVec Ideal S64x12500 .bf16) (constant S32x12500 .f32 0x00000000#32)

theorem tail0Scores_apply (p : Fin 32) (j : Fin 12500) :
    tail0Scores x0 x2 x3 (ix2 p j) = ∑ q : Fin 64, prodAt x0 x2 p q * x3 (ix2 q j) := by
  refine (matmul_zero_apply _ rfl _ _ p j).trans ?_
  refine Finset.sum_congr rfl fun q _ => ?_
  refine congrArg₂ (· * ·) ?_ (congrFun (shapeCast_self x3 _) (ix2 q j))
  show matmul (F := Ideal) dot_S32x128_S128x64_S32x64_1_0_0_1_n_n none (k0_pay2 x0 : FVec Ideal S32x128 .bf16)
      (shapeCast S128x64 x2 shapeCasts_S128x64_S128x64 : FVec Ideal S128x64 .bf16) (constant S32x64 .f32 0x00000000#32) (ix2 p q) = _
  refine (matmul_zero_apply _ rfl _ _ p q).trans ?_
  unfold prodAt
  rw [pay2_eq, shapeCast_self]

theorem pay5_eq : k0_pay5 (F := Ideal) x0 x1 x2 x3
    = addf (F := Ideal) (kLogSoftmaxShift (R := 32) (C := 12500) (tail0Scores x0 x2 x3) reduces_S32x12500_S32 (.inl rfl) rfl rfl
        shapeCasts_S32_S32x1 broadcasts_S32x1_S32x12500)
      (broadcastTo S32x12500 (extractStridedSlice S32x1 ![0, 12500] (k0_pay3 x0 x1) slices_S32x12502_o0_12500_S32x1)
        broadcasts_S32x1_S32x12500) := rfl

/-- The second stored piece: cluster 0's log-softmax plus the head's entry at column 12500. -/
theorem pay5_apply (p : Fin 32) (q : Fin 12500) :
    k0_pay5 (F := Ideal) x0 x1 x2 x3 (ix2 p q) = tailRow x0 x2 x3 p q + headRow x0 x1 p ⟨12500, by omega⟩ := by
  rw [pay5_eq]
  refine congrArg₂ (· + ·) ?_ ?_
  · refine (kLogSoftmaxShift_apply _ _ _ _ _ _ _ p q).trans ?_
    unfold tailRow
    exact congrArg (fun f => logSoftTwice f q) (funext fun j' => tail0Scores_apply x0 x2 x3 p j')
  · exact (head_col_spread_apply 12500 (by omega) _ _ _ p q).trans (pay3_apply x0 x1 p ⟨12500, by omega⟩)

/-- Cluster 1's scores. -/
def tail1Scores : FVec Ideal S32x25000 .f32 :=
  matmul (F := Ideal) dot_S32x32_S32x25000_S32x25000_1_0_0_1_n_n none
    (truncf .bf16 (matmul (F := Ideal) dot_S32x128_S128x32_S32x32_1_0_0_1_n_n none (k0_pay2 x0 : FVec Ideal S32x128 .bf16)
      (shapeCast S128x32 x4 shapeCasts_S128x32_S128x32 : FVec Ideal S128x32 .bf16) (constant S32x32 .f32 0x00000000#32)) bitsLt_bf16_f32)
    (shapeCast S32x25000 x5 shapeCasts_S32x25000_S32x25000 : FVec Ideal S32x25000 .bf16) (constant S32x25000 .f32 0x00000000#32)

theorem tail1Scores_apply (p : Fin 32) (j : Fin 25000) :
    tail1Scores x0 x4 x5 (ix2 p j) = ∑ q : Fin 32, prodAt x0 x4 p q * x5 (ix2 q j) := by
  refine (matmul_zero_apply _ rfl _ _ p j).trans ?_
  refine Finset.sum_congr rfl fun q _ => ?_
  refine congrArg₂ (· * ·) ?_ (congrFun (shapeCast_self x5 _) (ix2 q j))
  show matmul (F := Ideal) dot_S32x128_S128x32_S32x32_1_0_0_1_n_n none (k0_pay2 x0 : FVec Ideal S32x128 .bf16)
      (shapeCast S128x32 x4 shapeCasts_S128x32_S128x32 : FVec Ideal S128x32 .bf16) (constant S32x32 .f32 0x00000000#32) (ix2 p q) = _
  refine (matmul_zero_apply _ rfl _ _ p q).trans ?_
  unfold prodAt
  rw [pay2_eq, shapeCast_self]

theorem pay1_eq : k0_pay1 (F := Ideal) (k0_pay2 x0) (k0_pay3 x0 x1) x4 x5
    = addf (F := Ideal) (kLogSoftmaxShift (R := 32) (C := 25000) (tail1Scores x0 x4 x5) reduces_S32x25000_S32 (.inl rfl) rfl rfl
        shapeCasts_S32_S32x1 broadcasts_S32x1_S32x25000)
      (broadcastTo S32x25000 (extractStridedSlice S32x1 ![0, 12501] (k0_pay3 x0 x1) slices_S32x12502_o0_12501_S32x1)
        broadcasts_S32x1_S32x25000) := rfl

/-- The third stored piece: cluster 1's log-softmax plus the head's entry at column 12501. -/
theorem pay1_apply (p : Fin 32) (q : Fin 25000) :
    k0_pay1 (F := Ideal) (k0_pay2 x0) (k0_pay3 x0 x1) x4 x5 (ix2 p q)
      = tailRow x0 x4 x5 p q + headRow x0 x1 p ⟨12501, by omega⟩ := by
  rw [pay1_eq]
  refine congrArg₂ (· + ·) ?_ ?_
  · refine (kLogSoftmaxShift_apply _ _ _ _ _ _ _ p q).trans ?_
    unfold tailRow
    exact congrArg (fun f => logSoftTwice f q) (funext fun j' => tail1Scores_apply x0 x4 x5 p j')
  · exact (head_col_spread_apply 12501 (by omega) _ _ _ p q).trans (pay3_apply x0 x1 p ⟨12501, by omega⟩)

end Cert.KernelIdeal.Payload

end
-- ==== Proof.AdaptiveArray.lean ====
/-
  The adaptive log-softmax at this model's sizes: 128 features, a head of 12502 columns (12500 classes and two cluster
  entries, at columns 12500 and 12501), cluster 0 through 64 hidden units onto 12500 classes, cluster 1 through 32 hidden
  units onto 25000 classes; 50000 output lanes. `arrayOf` is the array [R, 50000] whose row `r` is the row function
  (LibAdaptiveRow) of row `r` of the pooled array.
-/
import Mathlib
import Idealize.ShloMosaic.PureOps.Ideal
import Idealize.ShloMosaic.Lib.ValueIdx
import proofs.«107135_j41137196761528_2_alg».proof.Proof.LibAdaptiveRow

noncomputable section

namespace Cert.AdaptiveArray

open Idealize.ShloMosaic Idealize.ShloMosaic.ValueIdx Cert.LibAdaptiveRow

theorem hw : (50000 : ℕ) = 12500 + 12500 + 25000 := by norm_num
theorem hn0 : (12500 : ℕ) ≤ 12502 := by norm_num

/-- Row `r`, lane `l` of the adaptive log-softmax of `R` pooled rows against the five weight arrays: 12500 head lanes, the
    clusters' log-probabilities at the head's columns 12500 and 12501. -/
abbrev rowOf {R : ℕ} (P : (⟨2, ![R, 128]⟩ : Shape).Idx → EReal) (A1 : (⟨2, ![128, 12502]⟩ : Shape).Idx → EReal)
    (A2 : (⟨2, ![128, 64]⟩ : Shape).Idx → EReal) (A3 : (⟨2, ![64, 12500]⟩ : Shape).Idx → EReal)
    (A4 : (⟨2, ![128, 32]⟩ : Shape).Idx → EReal) (A5 : (⟨2, ![32, 25000]⟩ : Shape).Idx → EReal)
    (r : Fin R) (l : Fin 50000) : EReal :=
  outRow hw hn0 ⟨12500, by norm_num⟩ ⟨12501, by norm_num⟩ P A1 A2 A3 A4 A5 r l

/-- An array [R, 50000] whose every row is the row function of the same row of `P`. -/
def arrayOf {R : ℕ} (P : (⟨2, ![R, 128]⟩ : Shape).Idx → EReal) (A1 : (⟨2, ![128, 12502]⟩ : Shape).Idx → EReal)
    (A2 : (⟨2, ![128, 64]⟩ : Shape).Idx → EReal) (A3 : (⟨2, ![64, 12500]⟩ : Shape).Idx → EReal)
    (A4 : (⟨2, ![128, 32]⟩ : Shape).Idx → EReal) (A5 : (⟨2, ![32, 25000]⟩ : Shape).Idx → EReal) :
    (⟨2, ![R, 50000]⟩ : Shape).Idx → EReal :=
  fun y => rowOf P A1 A2 A3 A4 A5 ⟨(y 0).val, idx2_lt0 y⟩ ⟨(y 1).val, idx2_lt1 y⟩

/-- The array at an index whose coordinates have the values of `r` and `l`. -/
theorem arrayOf_of_val {R : ℕ} (P : (⟨2, ![R, 128]⟩ : Shape).Idx → EReal) (A1 : (⟨2, ![128, 12502]⟩ : Shape).Idx → EReal)
    (A2 : (⟨2, ![128, 64]⟩ : Shape).Idx → EReal) (A3 : (⟨2, ![64, 12500]⟩ : Shape).Idx → EReal)
    (A4 : (⟨2, ![128, 32]⟩ : Shape).Idx → EReal) (A5 : (⟨2, ![32, 25000]⟩ : Shape).Idx → EReal)
    (y : (⟨2, ![R, 50000]⟩ : Shape).Idx) (r : Fin R) (l : Fin 50000) (h0 : (y 0).val = r.val) (h1 : (y 1).val = l.val) :
    arrayOf P A1 A2 A3 A4 A5 y = rowOf P A1 A2 A3 A4 A5 r l := by
  have e0 : (⟨(y 0).val, idx2_lt0 y⟩ : Fin R) = r := Fin.ext h0
  have e1 : (⟨(y 1).val, idx2_lt1 y⟩ : Fin 50000) = l := Fin.ext h1
  unfold arrayOf
  rw [e0, e1]

end Cert.AdaptiveArray

end
-- ==== Proof.KernelValue.lean ====
/-
  The kernel's result array, entry by entry, over the extended reals.

  The grid has 64 points. At point `t` the body sees rows `32 t … 32 t + 31` of the pooled array [2048, 128] (window 0)
  and the whole of each of the five weight arrays (windows 1 to 5: their block index is always (0, 0)), and writes back rows
  `32 t … 32 t + 31` of the result [2048, 50000] (window 6). The three pieces the body stores tile its output block, and each
  stored entry is the adaptive log-softmax row function of the block's row (module KernelPayload); a row of the result reads
  only the same row of the pooled array, so block `t` of the result is block `t` of ONE function of the whole arrays, and
  the 64 blocks cover all 2048 rows.
-/
import proofs.«107135_j41137196761528_2_alg».proof.Proof.Gen.KernelIdeal.Value
import Idealize.ShloMosaic.Lib.Pipeline.Value
import Idealize.ShloMosaic.Lib.Tactic
import proofs.«107135_j41137196761528_2_alg».proof.Proof.KernelPayload
import proofs.«107135_j41137196761528_2_alg».proof.Proof.AdaptiveArray

noncomputable section

open scoped BigOperators

namespace Cert.KernelIdeal.AdaptiveValue

open Cert.KernelIdeal Cert.KernelIdeal.Gen Idealize.ShloMosaic Idealize.ShloMosaic.TcCoe Idealize.SL.Sem
open Idealize.ShloMosaic.ValueIdx
open Idealize.ShloMosaic.Pipeline (Dat)
open Cert.LibAdaptiveRow Cert.KernelIdeal.Payload Cert.AdaptiveArray

theorem hz : (![0, 0] : Fin 2 → Nat) = fun _ => 0 := funext fun a => by fin_cases a <;> rfl

/-! ## The body's output block -/

/-- What the body leaves in its output block: the three stored pieces are the three lane ranges of the row function of the
    block's rows. -/
theorem out_A_apply (c : Dev nD) (i : grid0.Coords) (arg1 : Memref sig .tc .vmem S32x128 .bf16) (harg1 : arg1.IsWhole) (arg2 : Memref sig .tc .vmem S128x12502 .bf16) (harg2 : arg2.IsWhole) (arg3 : Memref sig .tc .vmem S128x64 .bf16) (harg3 : arg3.IsWhole) (arg4 : Memref sig .tc .vmem S64x12500 .bf16) (harg4 : arg4.IsWhole) (arg5 : Memref sig .tc .vmem S128x32 .bf16) (harg5 : arg5.IsWhole) (arg6 : Memref sig .tc .vmem S32x25000 .bf16) (harg6 : arg6.IsWhole) (arg7 : Memref sig .tc .vmem S32x50000 .f32) (harg7 : arg7.IsWhole) (x0 : FVec Ideal S32x128 .bf16) (x1 : FVec Ideal S128x12502 .bf16) (x2 : FVec Ideal S128x64 .bf16) (x3 : FVec Ideal S64x12500 .bf16) (x4 : FVec Ideal S128x32 .bf16) (x5 : FVec Ideal S32x25000 .bf16) (y : S32x50000.Idx) :
    out0_A_6 (F := Ideal) c i arg1 harg1 arg2 harg2 arg3 harg3 arg4 harg4 arg5 harg5 arg6 harg6 arg7 harg7 x0 x1 x2 x3 x4 x5 y = arrayOf (R := 32) x0 x1 x2 x3 x4 x5 y := by
  have hc := cover0_A_6 (F := Ideal) c i arg1 harg1 arg2 harg2 arg3 harg3 arg4 harg4 arg5 harg5 arg6 harg6 arg7 harg7 x0 x1 x2 x3 x4 x5 y
  unfold out0_A_6
  rw [View.read_writes_apply_eq_canon _ _ y _ hc]
  refine View.canon_apply_of_pieces (arrayOf (R := 32) x0 x1 x2 x3 x4 x5) _ ?_ y hc
  unfold kernelRun0_A
  dsimp only
  sl_unfold_words
  simp only [View.readAt_eq_ld, harg1.read_unread, harg2.read_unread, harg3.read_unread, harg4.read_unread, harg5.read_unread,
    harg6.read_unread, View.ld_unit_zero (S := S32x128) hz, View.ld_unit_zero (S := S128x12502) hz,
    View.ld_unit_zero (S := S128x64) hz, View.ld_unit_zero (S := S64x12500) hz, View.ld_unit_zero (S := S128x32) hz,
    View.ld_unit_zero (S := S32x25000) hz]
  intro pc hpc
  simp only [List.mem_cons, List.not_mem_nil, or_false] at hpc
  rcases hpc with rfl | rfl | rfl
  · intro x
    obtain ⟨p, q, rfl⟩ : ∃ (p : Fin 32) (q : Fin 25000), x = ix2 p q := ⟨x 0, x 1, eq_ix2 x⟩
    refine (pay1_apply x0 x1 x4 x5 p q).trans ?_
    refine ((arrayOf_of_val (R := 32) x0 x1 x2 x3 x4 x5 _ p ⟨25000 + q.val, by have := q.isLt; omega⟩ ?_ ?_).trans ?_).symm
    · show 0 + 1 * p.val = p.val; omega
    · show 25000 + 1 * q.val = 25000 + q.val; omega
    · exact outRow_tail1 hw hn0 _ _ x0 x1 x2 x3 x4 x5 p _ q rfl
  · intro x
    obtain ⟨p, q, rfl⟩ : ∃ (p : Fin 32) (q : Fin 12500), x = ix2 p q := ⟨x 0, x 1, eq_ix2 x⟩
    refine (pay5_apply x0 x1 x2 x3 p q).trans ?_
    refine ((arrayOf_of_val (R := 32) x0 x1 x2 x3 x4 x5 _ p ⟨12500 + q.val, by have := q.isLt; omega⟩ ?_ ?_).trans ?_).symm
    · show 0 + 1 * p.val = p.val; omega
    · show 12500 + 1 * q.val = 12500 + q.val; omega
    · exact outRow_tail0 hw hn0 _ _ x0 x1 x2 x3 x4 x5 p _ q rfl
  · intro x
    obtain ⟨p, q, rfl⟩ : ∃ (p : Fin 32) (q : Fin 12500), x = ix2 p q := ⟨x 0, x 1, eq_ix2 x⟩
    refine (pay4_apply x0 x1 p q).trans ?_
    refine ((arrayOf_of_val (R := 32) x0 x1 x2 x3 x4 x5 _ p ⟨q.val, by have := q.isLt; omega⟩ ?_ ?_).trans ?_).symm
    · show 0 + 1 * p.val = p.val; omega
    · show 0 + 1 * q.val = q.val; omega
    · exact outRow_head hw hn0 _ _ x0 x1 x2 x3 x4 x5 p _ _ (by show q.val < 12500; exact q.isLt) rfl

end Cert.KernelIdeal.AdaptiveValue

end
-- ==== Proof.KernelArray.lean ====
/-
  From the blocks to the array: the kernel's run with its result array as one function of the arrays the region finds.

  Window 0's block at point `t` is rows `32 t … 32 t + 31` of the pooled array; windows 1 to 5 hold their whole arrays at
  every point; window 6's block is rows `32 t … 32 t + 31` of the result. Since a row of the adaptive log-softmax reads only
  the same row of the pooled array, what point `t` writes back is block `t` of `arrayOf` of the whole arrays; the 64 blocks
  cover the 2048 rows, so the result array ends holding `arrayOf` of them.
-/
import proofs.«107135_j41137196761528_2_alg».proof.Proof.Gen.KernelIdeal.Value
import Idealize.ShloMosaic.Lib.Pipeline.Value
import proofs.«107135_j41137196761528_2_alg».proof.Proof.KernelValue

noncomputable section

namespace Cert.KernelIdeal.AdaptiveValue

open Cert.KernelIdeal Cert.KernelIdeal.Gen Idealize.ShloMosaic Idealize.ShloMosaic.TcCoe Idealize.SL.Sem
open Idealize.ShloMosaic.ValueIdx
open Idealize.ShloMosaic.Pipeline (Dat)
open Cert.LibAdaptiveRow Cert.AdaptiveArray

variable (m : (ℓ : Loc nD τ sig) → Buf (Elt Ideal) ℓ) (ρ : Dev nD → PrngReg)

/-- The printed index maps, decided over the 64 grid points: windows 0 and 6 move one block of rows per point, the weight
    windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `32 t … 32 t + 31` of the pooled array. -/
theorem iblk0_apply (c : Dev nD) (t : Fin cfg0.N) (x : S32x128.Idx) (k : S2048x128.Idx)
    (hk0 : (k 0).val = 32 * t.val + (x 0).val) (hk1 : (k 1).val = (x 1).val) :
    (iblk m c 0 t : FVec Ideal S32x128 .bf16) x = (V m c main_v22 : FVec Ideal S2048x128 .bf16) k := by
  obtain ⟨e0, e1, -⟩ := idx_facts t
  unfold iblk
  rw [View.read_apply]
  show (V m c main_v22 : FVec Ideal S2048x128 .bf16) _ = _
  congr 1
  funext a; apply Fin.ext
  match a with
  | ⟨0, _⟩ => show win0_0.index t (0 : Fin 2) * 32 + 1 * (x 0).val = (k 0).val; rw [e0, hk0]; omega
  | ⟨1, _⟩ => show win0_0.index t (1 : Fin 2) * 128 + 1 * (x 1).val = (k 1).val; rw [e1, hk1]; omega

/-- Window 1's block is the whole array at every point. -/
theorem iblk1_eq (c : Dev nD) (t : Fin cfg0.N) :
    (iblk m c 1 t : FVec Ideal S128x12502 .bf16) = (V m c main_v28 : FVec Ideal S128x12502 .bf16) := by
  obtain ⟨-, -, e0, e1, -⟩ := idx_facts t
  funext x
  unfold iblk
  rw [View.read_apply]
  show (V m c main_v28 : FVec Ideal S128x12502 .bf16) _ = _
  congr 1
  funext a; apply Fin.ext
  match a with
  | ⟨0, _⟩ => show win0_1.index t (0 : Fin 2) * 128 + 1 * (x 0).val = (x 0).val; rw [e0]; omega
  | ⟨1, _⟩ => show win0_1.index t (1 : Fin 2) * 12502 + 1 * (x 1).val = (x 1).val; rw [e1]; omega

/-- Window 2's block is the whole array at every point. -/
theorem iblk2_eq (c : Dev nD) (t : Fin cfg0.N) :
    (iblk m c 2 t : FVec Ideal S128x64 .bf16) = (V m c main_v29 : FVec Ideal S128x64 .bf16) := by
  obtain ⟨-, -, -, -, e0, e1, -⟩ := idx_facts t
  funext x
  unfold iblk
  rw [View.read_apply]
  show (V m c main_v29 : FVec Ideal S128x64 .bf16) _ = _
  congr 1
  funext a; apply Fin.ext
  match a with
  | ⟨0, _⟩ => show win0_2.index t (0 : Fin 2) * 128 + 1 * (x 0).val = (x 0).val; rw [e0]; omega
  | ⟨1, _⟩ => show win0_2.index t (1 : Fin 2) * 64 + 1 * (x 1).val = (x 1).val; rw [e1]; omega

/-- Window 3's block is the whole array at every point. -/
theorem iblk3_eq (c : Dev nD) (t : Fin cfg0.N) :
    (iblk m c 3 t : FVec Ideal S64x12500 .bf16) = (V m c main_v30 : FVec Ideal S64x12500 .bf16) := by
  obtain ⟨-, -, -, -, -, -, e0, e1, -⟩ := idx_facts t
  funext x
  unfold iblk
  rw [View.read_apply]
  show (V m c main_v30 : FVec Ideal S64x12500 .bf16) _ = _
  congr 1
  funext a; apply Fin.ext
  match a with
  | ⟨0, _⟩ => show win0_3.index t (0 : Fin 2) * 64 + 1 * (x 0).val = (x 0).val; rw [e0]; omega
  | ⟨1, _⟩ => show win0_3.index t (1 : Fin 2) * 12500 + 1 * (x 1).val = (x 1).val; rw [e1]; omega

/-- Window 4's block is the whole array at every point. -/
theorem iblk4_eq (c : Dev nD) (t : Fin cfg0.N) :
    (iblk m c 4 t : FVec Ideal S128x32 .bf16) = (V m c main_v31 : FVec Ideal S128x32 .bf16) := by
  obtain ⟨-, -, -, -, -, -, -, -, e0, e1, -⟩ := idx_facts t
  funext x
  unfold iblk
  rw [View.read_apply]
  show (V m c main_v31 : FVec Ideal S128x32 .bf16) _ = _
  congr 1
  funext a; apply Fin.ext
  match a with
  | ⟨0, _⟩ => show win0_4.index t (0 : Fin 2) * 128 + 1 * (x 0).val = (x 0).val; rw [e0]; omega
  | ⟨1, _⟩ => show win0_4.index t (1 : Fin 2) * 32 + 1 * (x 1).val = (x 1).val; rw [e1]; omega

/-- Window 5's block is the whole array at every point. -/
theorem iblk5_eq (c : Dev nD) (t : Fin cfg0.N) :
    (iblk m c 5 t : FVec Ideal S32x25000 .bf16) = (V m c main_v32 : FVec Ideal S32x25000 .bf16) := by
  obtain ⟨-, -, -, -, -, -, -, -, -, -, e0, e1, -⟩ := idx_facts t
  funext x
  unfold iblk
  rw [View.read_apply]
  show (V m c main_v32 : FVec Ideal S32x25000 .bf16) _ = _
  congr 1
  funext a; apply Fin.ext
  match a with
  | ⟨0, _⟩ => show win0_5.index t (0 : Fin 2) * 32 + 1 * (x 0).val = (x 0).val; rw [e0]; omega
  | ⟨1, _⟩ => show win0_5.index t (1 : Fin 2) * 25000 + 1 * (x 1).val = (x 1).val; rw [e1]; omega

/-- The kernel's result as ONE function of the arrays the region finds. -/
def G (c : Dev nD) : S2048x50000.Idx → EReal :=
  arrayOf (R := 2048) (V m c main_v22 : FVec Ideal S2048x128 .bf16) (V m c main_v28 : FVec Ideal S128x12502 .bf16)
    (V m c main_v29 : FVec Ideal S128x64 .bf16) (V m c main_v30 : FVec Ideal S64x12500 .bf16)
    (V m c main_v31 : FVec Ideal S128x32 .bf16) (V m c main_v32 : FVec Ideal S32x25000 .bf16)

/-- WHAT POINT `t` WRITES BACK is block `t` of `G`. -/
theorem flushed_eq (c : Dev nD) (t : Fin cfg0.N) :
    (dats m 0 c).flushed 6 t = ((cfg0.win 6).blk t).view.read (Elt Ideal) (G m c) := by
  have g := (idx_facts t).2.2.2.2.2.2.2.2.2.2.2.2
  show (cfg0.win 6).cut (grid0.coords t) ((dats m 0 c).after 6 t) = _
  rw [after0_6]
  unfold outsAt0
  funext y
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) y = G m c (((cfg0.win 6).blk t).view.emb y)
  refine (out_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) y).trans ?_
  unfold G arrayOf
  refine outRow_congr_all hw hn0 _ _ (fun k => ?_) (iblk1_eq m c t) (iblk2_eq m c t) (iblk3_eq m c t) (iblk4_eq m c t)
    (iblk5_eq m c t) ?_
  · refine iblk0_apply m c t _ _ ?_ rfl
    show win0_6.index t (0 : Fin 2) * 32 + 1 * (y 0).val = 32 * t.val + (y 0).val
    rw [g.1]; omega
  · show (y 1).val = win0_6.index t (1 : Fin 2) * 50000 + 1 * (y 1).val
    rw [g.2]; omega

/-- An index of the result array is in point `t`'s block iff each coordinate is in the block's range on its axis. -/
theorem mem_blk (t : Fin cfg0.N) (i : S2048x50000.Idx) :
    i ∈ ((cfg0.win 6).blk t).view.set ↔ ∀ a : Fin 2, win0_6.index t a * S32x50000.size a ≤ (i a).val
      ∧ (i a).val < win0_6.index t a * S32x50000.size a + S32x50000.size a := by
  show i ∈ ((View.whole main_v33).slice (win0_6.rect t)).set ↔ _
  rw [View.set_slice_whole, Rect.mem_set_unit]
  exact Iff.rfl

/-- Every index of the result array is in the block of the point its row falls in. -/
theorem cover (i : S2048x50000.Idx) :
    ∃ t : Fin cfg0.N, (cfg0.win 6).flush t = true ∧ i ∈ ((cfg0.win 6).blk t).view.set := by
  have hi0 : (i 0).val < 2048 := (i 0).isLt
  have hi1 : (i 1).val < 50000 := (i 1).isLt
  have hN : cfg0.N = 64 := N_0
  have ht : (i 0).val / 32 < cfg0.N := by rw [hN]; omega
  have g := (idx_facts ⟨(i 0).val / 32, ht⟩).2.2.2.2.2.2.2.2.2.2.2.2
  refine ⟨⟨(i 0).val / 32, ht⟩, flush0_6 _, ?_⟩
  rw [mem_blk]
  intro a
  match a with
  | ⟨0, _⟩ =>
    show win0_6.index ⟨(i 0).val / 32, ht⟩ (0 : Fin 2) * 32 ≤ (i 0).val
      ∧ (i 0).val < win0_6.index ⟨(i 0).val / 32, ht⟩ (0 : Fin 2) * 32 + 32
    rw [g.1]
    show (i 0).val / 32 * 32 ≤ (i 0).val ∧ (i 0).val < (i 0).val / 32 * 32 + 32
    omega
  | ⟨1, _⟩ =>
    show win0_6.index ⟨(i 0).val / 32, ht⟩ (1 : Fin 2) * 50000 ≤ (i 1).val
      ∧ (i 1).val < win0_6.index ⟨(i 0).val / 32, ht⟩ (1 : Fin 2) * 50000 + 50000
    rw [g.2]
    omega

/-- THE RESULT ARRAY after the run. -/
theorem final (c : Dev nD) : (dats m 0 c).arrAt 6 cfg0.N = G m c :=
  (dats m 0 c).arrAt_eq_of_cover 6 (G m c) (fun t _ => flushed_eq m c t) cover

/-- The kernel's run: the result array at `G`, the arguments unchanged. -/
theorem run : θ_run defs (onTc (τ := τ) (main (F := Ideal))) ⟨m, fun _ => 0, ρ⟩ fun r => ∀ c : Dev nD,
      r.2.mem ((c : Thread nD τ).loc main_v33) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.AdaptiveValue

end
-- ==== Proof.LibConcatLanes3.lean ====
/-
  Three arrays [R, n0], [R, n1], [R, n2] laid side by side along the lanes, read at an index.

  The concatenation along axis 1 is an [R, w] array with w = n0 + n1 + n2. Its entry in row r and lane l comes from the
  piece whose span of lanes holds l: the first at lane l when l < n0, the second at lane l - n0 when n0 ≤ l < n0 + n1,
  the third at lane l - (n0 + n1) otherwise; the row is the same in every case.
-/
import Idealize.ShloMosaic.Lib.Pipeline.Value
import Idealize.ShloMosaic.Lib.ValueIdx

namespace Cert.LibConcatLanes3

open Idealize.ShloMosaic Idealize.ShloMosaic.ValueIdx

/-- Row `r`, lane `l` of three arrays laid side by side: the piece whose lanes hold `l`, at `l` less the lanes of the
    pieces before it. -/
def lanes3 {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (r : Fin R) (l : Fin w) : α :=
  if h0 : l.val < n0 then a (ix2 r ⟨l.val, h0⟩)
  else if h1 : l.val < n0 + n1 then b (ix2 r ⟨l.val - n0, by omega⟩)
  else c (ix2 r ⟨l.val - (n0 + n1), by have := l.isLt; omega⟩)

/-- **The concatenation of three arrays along the lanes, read at row `r` and lane `l`**, is `lanes3`. -/
theorem concatenate3_lanes_apply {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (h : Shape.Concatenates ([(⟨⟨2, ![R, n0]⟩, a⟩ : (s : Shape) × (s.Idx → α)), ⟨⟨2, ![R, n1]⟩, b⟩, ⟨⟨2, ![R, n2]⟩, c⟩].map (·.1))
      ⟨2, ![R, w]⟩ (1 : Fin 2))
    (r : Fin R) (l : Fin w) :
    concatenate ⟨2, ![R, w]⟩ (1 : Fin 2) [⟨⟨2, ![R, n0]⟩, a⟩, ⟨⟨2, ![R, n1]⟩, b⟩, ⟨⟨2, ![R, n2]⟩, c⟩] h (ix2 r l)
      = lanes3 hw a b c r l := by
  unfold lanes3
  have hoff : ∀ {n : Nat} (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro n i hi bb hbb
    match bb with
    | ⟨0, _⟩ => exact hi
    | ⟨1, _⟩ => exact absurd rfl hbb
  by_cases h0 : l.val < n0
  · rw [dif_pos h0]
    exact concatenate_apply_piece (1 : Fin 2) _ h (ix2 r l) 0 (by simp) ⟨2, ![R, n0]⟩ a rfl rfl 0 rfl
      (ix2 r ⟨l.val, h0⟩) (hoff _ rfl) (by show 0 + l.val = l.val; omega)
  · rw [dif_neg h0]
    by_cases h1 : l.val < n0 + n1
    · rw [dif_pos h1]
      exact concatenate_apply_piece (1 : Fin 2) _ h (ix2 r l) 1 (by simp) ⟨2, ![R, n1]⟩ b rfl rfl n0 (by simp)
        (ix2 r ⟨l.val - n0, by omega⟩) (hoff _ rfl) (by show n0 + (l.val - n0) = l.val; omega)
    · rw [dif_neg h1]
      exact concatenate_apply_piece (1 : Fin 2) _ h (ix2 r l) 2 (by simp) ⟨2, ![R, n2]⟩ c rfl rfl (n0 + n1) (by simp)
        (ix2 r ⟨l.val - (n0 + n1), by have := l.isLt; omega⟩) (hoff _ rfl)
        (by show n0 + n1 + (l.val - (n0 + n1)) = l.val; omega)

end Cert.LibConcatLanes3
-- ==== Proof.RefTerm.lean ====
/-
  The reference's result as a term of its seven arguments, and that term read entry by entry.

  The reference pools the embedding rows of each sample: it normalises the indices (a negative index has the table's length
  added), gathers the rows, masks out index 0, sums over the sample's positions and divides by the number of positions whose
  index is not 0 (at least 1): `pooled`. It scores the pooled rows against the transposed head weights, takes the row-wise
  log-softmax (`headLS`); for each of two clusters it projects the pooled rows, scores the projection against the cluster's
  transposed output weights and takes the row-wise log-softmax (`tail0LS`, `tail1LS`); and it lays side by side the first
  12500 head columns, cluster 0's columns plus the head's column 12500, and cluster 1's columns plus the head's column 12501.

  Read at row `r`, lane `l`, that array is the adaptive log-softmax row function (LibAdaptiveRow) of row `r` of `pooled`
  against the transposed weights: a product is the plain sum over the contracted axis, the host's log-softmax is
  `(s - M) - log Σ exp (s - M)` with `M` the row's maximum, a slice and a broadcast of a column read one entry. No
  finiteness is used.
-/
import proofs.«107135_j41137196761528_2_alg».proof.Proof.Gen.ReferenceIdeal
import Idealize.ShloMosaic.Lib.Pipeline.Value
import Idealize.ShloMosaic.Lib.ValueIdx
import Idealize.ShloMosaic.PureOps.Ideal.Laws
import proofs.«107135_j41137196761528_2_alg».proof.Proof.LibDotRows
import proofs.«107135_j41137196761528_2_alg».proof.Proof.LibLogSoftmaxRows
import proofs.«107135_j41137196761528_2_alg».proof.Proof.LibConcatLanes3
import proofs.«107135_j41137196761528_2_alg».proof.Proof.LibAdaptiveRow

noncomputable section

open scoped BigOperators

namespace Cert.ReferenceIdeal.Adaptive

open Cert.ReferenceIdeal Cert.ReferenceIdeal.Gen Idealize.ShloMosaic Idealize.ShloMosaic.ValueIdx
open Cert.LibAdaptiveRow Cert.LibLogSoftmaxRows Cert.LibRowKL Cert.LibConcatLanes3

/-- The pooled embedding rows [2048, 128]: the mean over a sample's positions with a nonzero index of the gathered rows. -/
def pooled {F : FTy → Type} [FloatOps F] (x0 : (⟨S2048x50, .i32⟩ : BufTy).Contents (Elt F))
    (x1 : (⟨S1000000x128, .f32⟩ : BufTy).Contents (Elt F)) : (⟨S2048x128, .f32⟩ : BufTy).Contents (Elt F) :=
  Host.divf (Host.reduceAdd (mulf (Host.gather gather_S1000000x128_S2048x50x1_S2048x50x128_2_0_n_n_0_2_1128 x1 (broadcastInDim S2048x50x1 ![0, 1] bcast_S2048x50_S2048x50x1_0_1 (select (cmpi .slt x0 (broadcastInDim S2048x50 ![] bcast_S_S2048x50 (constantI S_ 32 0#32))) (addi x0 (broadcastInDim S2048x50 ![] bcast_S_S2048x50 (constantI S_ 32 1000000#32))) x0))) (broadcastInDim S2048x50x128 ![0, 1, 2] bcast_S2048x50x1_S2048x50x128_0_1_2 (uitofp .f32 (broadcastInDim S2048x50x1 ![0, 1] bcast_S2048x50_S2048x50x1_0_1 (cmpi .ne x0 (broadcastInDim S2048x50 ![] bcast_S_S2048x50 (constantI S_ 32 0#32))))))) (constant S_ .f32 0x00000000#32) reducesTo_S2048x50x128_S2048x128_d1 h_S_) (broadcastInDim S2048x128 ![0, 1] bcast_S2048x1_S2048x128_0_1 (sitofp .f32 (maxsi (broadcastInDim S2048x1 ![0] bcast_S2048_S2048x1_0 (Host.reduce IntOp.addi (extui 32 (cmpi .ne x0 (broadcastInDim S2048x50 ![] bcast_S_S2048x50 (constantI S_ 32 0#32))) natLt_1_32) (constantI S_ 32 0#32) reducesTo_S2048x50_S2048_d1 h_S_)) (broadcastInDim S2048x1 ![] bcast_S_S2048x1 (constantI S_ 32 1#32)))))

variable (P : FVec Ideal S2048x128 .f32) (x0 : IVec S2048x50 32) (x1 : FVec Ideal S1000000x128 .f32) (x2 : FVec Ideal S12502x128 .f32)
  (x3 : FVec Ideal S64x128 .f32) (x4 : FVec Ideal S12500x64 .f32) (x5 : FVec Ideal S32x128 .f32) (x6 : FVec Ideal S25000x32 .f32)

/-- The head scores. -/
def headScores : FVec Ideal S2048x12502 .f32 :=
  Host.dotGeneral (F := Ideal) (φ₁ := .f32) (φ₂ := .f32) dot_S2048x128_S128x12502_S2048x12502_1_0_0_1_n_n none P
    (transpose S128x12502 [1, 0] x2 transposes_S12502x128_S128x12502_1_0 : FVec Ideal S128x12502 .f32)

/-- The row-wise log-softmax of the head scores. -/
def headLS : FVec Ideal S2048x12502 .f32 :=
  hLogSoftmax (R := 2048) (C := 12502) (headScores P x2) reducesTo_S2048x12502_S2048_d1 h_S_ bcast_S_S2048
    bcast_S2048_S2048x1_0 bcast_S2048x1_S2048x12502_0_1

/-- Cluster 0's scores. -/
def tail0Scores : FVec Ideal S2048x12500 .f32 :=
  Host.dotGeneral (F := Ideal) (φ₁ := .f32) (φ₂ := .f32) dot_S2048x64_S64x12500_S2048x12500_1_0_0_1_n_n none
    (Host.dotGeneral (F := Ideal) (φ₁ := .f32) (φ₂ := .f32) dot_S2048x128_S128x64_S2048x64_1_0_0_1_n_n none P
      (transpose S128x64 [1, 0] x3 transposes_S64x128_S128x64_1_0 : FVec Ideal S128x64 .f32) : FVec Ideal S2048x64 .f32)
    (transpose S64x12500 [1, 0] x4 transposes_S12500x64_S64x12500_1_0 : FVec Ideal S64x12500 .f32)

/-- The row-wise log-softmax of cluster 0's scores. -/
def tail0LS : FVec Ideal S2048x12500 .f32 :=
  hLogSoftmax (R := 2048) (C := 12500) (tail0Scores P x3 x4) reducesTo_S2048x12500_S2048_d1 h_S_ bcast_S_S2048
    bcast_S2048_S2048x1_0 bcast_S2048x1_S2048x12500_0_1

/-- Cluster 1's scores. -/
def tail1Scores : FVec Ideal S2048x25000 .f32 :=
  Host.dotGeneral (F := Ideal) (φ₁ := .f32) (φ₂ := .f32) dot_S2048x32_S32x25000_S2048x25000_1_0_0_1_n_n none
    (Host.dotGeneral (F := Ideal) (φ₁ := .f32) (φ₂ := .f32) dot_S2048x128_S128x32_S2048x32_1_0_0_1_n_n none P
      (transpose S128x32 [1, 0] x5 transposes_S32x128_S128x32_1_0 : FVec Ideal S128x32 .f32) : FVec Ideal S2048x32 .f32)
    (transpose S32x25000 [1, 0] x6 transposes_S25000x32_S32x25000_1_0 : FVec Ideal S32x25000 .f32)

/-- The row-wise log-softmax of cluster 1's scores. -/
def tail1LS : FVec Ideal S2048x25000 .f32 :=
  hLogSoftmax (R := 2048) (C := 25000) (tail1Scores P x5 x6) reducesTo_S2048x25000_S2048_d1 h_S_ bcast_S_S2048
    bcast_S2048_S2048x1_0 bcast_S2048x1_S2048x25000_0_1

/-- The result [2048, 50000] from the pooled rows `P`. -/
def refArrayOf : FVec Ideal S2048x50000 .f32 :=
  concatenate S2048x50000 1
    [⟨S2048x12500, (extractStridedSlice S2048x12500 ![0, 0] (headLS P x2) slices_S2048x12502_S2048x12500_0_0)⟩,
     ⟨S2048x12500, (addf (F := Ideal) (tail0LS P x3 x4) (broadcastInDim S2048x12500 ![0, 1] bcast_S2048x1_S2048x12500_0_1
        (extractStridedSlice S2048x1 ![0, 12500] (headLS P x2) slices_S2048x12502_S2048x1_0_12500)))⟩,
     ⟨S2048x25000, (addf (F := Ideal) (tail1LS P x5 x6) (broadcastInDim S2048x25000 ![0, 1] bcast_S2048x1_S2048x25000_0_1
        (extractStridedSlice S2048x1 ![0, 12501] (headLS P x2) slices_S2048x12502_S2048x1_0_12501)))⟩]
    concatenates_S2048x12500_S2048x12500_S2048x25000_S2048x50000_d1

/-- The reference's result [2048, 50000]. -/
def refArray : FVec Ideal S2048x50000 .f32 := refArrayOf (pooled (F := Ideal) x0 x1) x2 x3 x4 x5 x6

end Cert.ReferenceIdeal.Adaptive

end
-- ==== Proof.RefRead.lean ====
/-
  The reference's result array read at row `r`, lane `l`: it is `arrayOf` of the pooled rows and the transposed weights.

  The concatenation reads the piece whose lanes hold `l`; a slice and a column broadcast read one head entry; each
  log-softmax is the one-row function `logSoftTwice` of the row's scores; each product is the plain sum over the
  contracted axis. So row `r` of the reference's result is the adaptive log-softmax row function of row `r` of `pooled`.
-/
import proofs.«107135_j41137196761528_2_alg».proof.Proof.RefTerm
import proofs.«107135_j41137196761528_2_alg».proof.Proof.AdaptiveArray

noncomputable section

open scoped BigOperators

namespace Cert.ReferenceIdeal.Adaptive

open Cert.ReferenceIdeal Cert.ReferenceIdeal.Gen Idealize.ShloMosaic Idealize.ShloMosaic.ValueIdx
open Cert.LibAdaptiveRow Cert.LibLogSoftmaxRows Cert.LibRowKL Cert.LibConcatLanes3 Cert.AdaptiveArray

/-- Entry `(p, q)` of the host's product whose dimension numbers are the plain ones. -/
theorem dotGeneral_eq_plain_apply {M K N : ℕ} {φ₁ φ₂ : FTy} (d : DotDims ⟨2, ![M, K]⟩ ⟨2, ![K, N]⟩ ⟨2, ![M, N]⟩)
    (hd : d = DotDims.plain M K N) (a : FVec Ideal ⟨2, ![M, K]⟩ φ₁) (b : FVec Ideal ⟨2, ![K, N]⟩ φ₂) (p : Fin M) (q : Fin N) :
    Host.dotGeneral (F := Ideal) d none a b (ix2 p q) = ∑ k : Fin K, a (ix2 p k) * b (ix2 k q) := by
  subst hd
  exact Cert.Lib.DotRows.dotGeneral_plain_apply a b p q

variable (P : FVec Ideal S2048x128 .f32) (x0 : IVec S2048x50 32) (x1 : FVec Ideal S1000000x128 .f32) (x2 : FVec Ideal S12502x128 .f32)
  (x3 : FVec Ideal S64x128 .f32) (x4 : FVec Ideal S12500x64 .f32) (x5 : FVec Ideal S32x128 .f32) (x6 : FVec Ideal S25000x32 .f32)

/-- The transposed weights. -/
abbrev T2 : FVec Ideal S128x12502 .f32 := transpose S128x12502 [1, 0] x2 transposes_S12502x128_S128x12502_1_0
abbrev T3 : FVec Ideal S128x64 .f32 := transpose S128x64 [1, 0] x3 transposes_S64x128_S128x64_1_0
abbrev T4 : FVec Ideal S64x12500 .f32 := transpose S64x12500 [1, 0] x4 transposes_S12500x64_S64x12500_1_0
abbrev T5 : FVec Ideal S128x32 .f32 := transpose S128x32 [1, 0] x5 transposes_S32x128_S128x32_1_0
abbrev T6 : FVec Ideal S32x25000 .f32 := transpose S32x25000 [1, 0] x6 transposes_S25000x32_S32x25000_1_0

theorem headScores_apply (r : Fin 2048) (j : Fin 12502) :
    headScores P x2 (ix2 r j) = prodAt P (T2 x2) r j :=
  dotGeneral_eq_plain_apply _ rfl _ _ r j

/-- The head's log-softmax at row `r`, column `j`. -/
theorem headLS_apply (r : Fin 2048) (j : Fin 12502) :
    headLS P x2 (ix2 r j) = headRow P (T2 x2) r j := by
  refine (hLogSoftmax_apply _ _ _ _ _ _ r j).trans ?_
  unfold headRow
  exact congrArg (fun f => logSoftTwice f j) (funext fun j' => headScores_apply P x2 r j')

theorem tail0Scores_apply (r : Fin 2048) (j : Fin 12500) :
    tail0Scores P x3 x4 (ix2 r j) = ∑ q : Fin 64, prodAt P (T3 x3) r q * T4 x4 (ix2 q j) := by
  refine (dotGeneral_eq_plain_apply _ rfl _ _ r j).trans ?_
  refine Finset.sum_congr rfl fun q _ => ?_
  exact congrArg (· * T4 x4 (ix2 q j)) (dotGeneral_eq_plain_apply _ rfl _ _ r q)

theorem tail0LS_apply (r : Fin 2048) (j : Fin 12500) :
    tail0LS P x3 x4 (ix2 r j) = tailRow P (T3 x3) (T4 x4) r j := by
  refine (hLogSoftmax_apply _ _ _ _ _ _ r j).trans ?_
  unfold tailRow
  exact congrArg (fun f => logSoftTwice f j) (funext fun j' => tail0Scores_apply P x3 x4 r j')

theorem tail1Scores_apply (r : Fin 2048) (j : Fin 25000) :
    tail1Scores P x5 x6 (ix2 r j) = ∑ q : Fin 32, prodAt P (T5 x5) r q * T6 x6 (ix2 q j) := by
  refine (dotGeneral_eq_plain_apply _ rfl _ _ r j).trans ?_
  refine Finset.sum_congr rfl fun q _ => ?_
  exact congrArg (· * T6 x6 (ix2 q j)) (dotGeneral_eq_plain_apply _ rfl _ _ r q)

theorem tail1LS_apply (r : Fin 2048) (j : Fin 25000) :
    tail1LS P x5 x6 (ix2 r j) = tailRow P (T5 x5) (T6 x6) r j := by
  refine (hLogSoftmax_apply _ _ _ _ _ _ r j).trans ?_
  unfold tailRow
  exact congrArg (fun f => logSoftTwice f j) (funext fun j' => tail1Scores_apply P x5 x6 r j')

/-- The head's column `c`, sliced out and spread over `n` lanes, reads the head entry of its row. -/
theorem head_col_spread_apply {n : ℕ} (c : ℕ) (hc : c < 12502) (v : FVec Ideal S2048x12502 .f32)
    (hs : S2048x12502.Slices ![0, c] S2048x1) (hb : S2048x1.BroadcastsInDim (⟨2, ![2048, n]⟩ : Shape) ![0, 1])
    (r : Fin 2048) (q : Fin n) :
    broadcastInDim (⟨2, ![2048, n]⟩ : Shape) ![0, 1] hb (extractStridedSlice S2048x1 ![0, c] v hs) (ix2 r q) = v (ix2 r ⟨c, hc⟩) := by
  refine (bcast_col_rows_apply hb _ r q).trans ?_
  refine extractStridedSlice_apply _ _ _ _ _ fun a => ?_
  match a with
  | ⟨0, _⟩ => show r.val = 0 + r.val; omega
  | ⟨1, _⟩ => show c = c + 0; omega

/-- The result from pooled rows `P` is `arrayOf` of `P` and the transposed weights. -/
theorem refArrayOf_eq :
    refArrayOf P x2 x3 x4 x5 x6
      = arrayOf (R := 2048) P (T2 x2) (T3 x3) (T4 x4) (T5 x5) (T6 x6) := by
  funext i
  obtain ⟨r, l, rfl⟩ : ∃ (r : Fin 2048) (l : Fin 50000), i = ix2 r l := ⟨i 0, i 1, eq_ix2 i⟩
  rw [arrayOf_of_val _ _ _ _ _ _ (ix2 r l) r l rfl rfl]
  unfold refArrayOf
  refine (concatenate3_lanes_apply hw _ _ _ _ r l).trans ?_
  unfold lanes3
  by_cases h0 : l.val < 12500
  · rw [dif_pos h0]
    refine Eq.trans ?_ (outRow_head hw hn0 _ _ _ _ _ _ _ _ r l ⟨l.val, by omega⟩ h0 rfl).symm
    refine Eq.trans ?_ (headLS_apply P x2 r ⟨l.val, by omega⟩)
    refine extractStridedSlice_apply _ _ _ _ _ fun a => ?_
    match a with
    | ⟨0, _⟩ => show r.val = 0 + r.val; omega
    | ⟨1, _⟩ => show l.val = 0 + l.val; omega
  · rw [dif_neg h0]
    by_cases h1 : l.val < 12500 + 12500
    · rw [dif_pos h1]
      refine Eq.trans ?_ (outRow_tail0 hw hn0 _ _ _ _ _ _ _ _ r l ⟨l.val - 12500, by omega⟩ (by show l.val = 12500 + (l.val - 12500); omega)).symm
      refine congrArg₂ (· + ·) (tail0LS_apply P x3 x4 r _) ?_
      exact (head_col_spread_apply 12500 (by norm_num) _ _ _ r _).trans (headLS_apply P x2 r _)
    · rw [dif_neg h1]
      have hl := l.isLt
      refine Eq.trans ?_ (outRow_tail1 hw hn0 _ _ _ _ _ _ _ _ r l ⟨l.val - (12500 + 12500), by omega⟩ (by show l.val = 12500 + 12500 + (l.val - (12500 + 12500)); omega)).symm
      refine congrArg₂ (· + ·) (tail1LS_apply P x5 x6 r _) ?_
      exact (head_col_spread_apply 12501 (by norm_num) _ _ _ r _).trans (headLS_apply P x2 r _)

/-- THE REFERENCE'S RESULT is `arrayOf` of its pooled rows and its transposed weights. -/
theorem refArray_eq :
    refArray x0 x1 x2 x3 x4 x5 x6
      = arrayOf (R := 2048) (pooled (F := Ideal) x0 x1) (T2 x2) (T3 x3) (T4 x4) (T5 x5) (T6 x6) :=
  refArrayOf_eq (pooled (F := Ideal) x0 x1) x2 x3 x4 x5 x6

end Cert.ReferenceIdeal.Adaptive

end
-- ==== Proof.KernelHost.lean ====
/-
  The arrays the kernel's region finds, as functions of @main's arguments.

  Before the region @main pools the embedding rows exactly as the reference does (the same operations in the same order),
  narrows the result to bf16, transposes each weight array and narrows it to bf16. Over the extended reals a narrowing is
  the identity, so the region's six input arrays are the reference's `pooled` and its five transposed weights; and the
  kernel's result array is `arrayOf` of them.
-/
import proofs.«107135_j41137196761528_2_alg».proof.Proof.Gen.KernelIdeal.Frame
import Idealize.ShloMosaic.Lib.StableHlo.Run
import proofs.«107135_j41137196761528_2_alg».proof.Proof.KernelArray
import proofs.«107135_j41137196761528_2_alg».proof.Proof.RefRead

noncomputable section

namespace Cert.KernelIdeal.AdaptiveValue

open Cert.KernelIdeal Cert.KernelIdeal.Gen Idealize.ShloMosaic Idealize.ShloMosaic.TcCoe Idealize.SL.Sem
open Idealize.ShloMosaic.StableHlo Idealize.ShloMosaic.ValueIdx
open Cert.AdaptiveArray

variable (m : (ℓ : Loc nD τ sig) → Buf (Elt Ideal) ℓ) (ρ : Dev nD → PrngReg)

/-- The pooled array the region finds is the reference's pooling of the first two arguments. -/
theorem V_v22 (c : Dev nD) :
    (V m c main_v22 : FVec Ideal S2048x128 .bf16)
      = (Cert.ReferenceIdeal.Adaptive.pooled (F := Ideal) (m ((c : Thread nD τ).loc main_arg0))
          (m ((c : Thread nD τ).loc main_arg1)) : FVec Ideal S2048x128 .bf16) := by
  dsimp only [Gen.V, Gen.hostOps0]
  after_results_simp
  rfl

theorem V_v28 (c : Dev nD) :
    (V m c main_v28 : FVec Ideal S128x12502 .bf16)
      = (Cert.ReferenceIdeal.Adaptive.T2 (m ((c : Thread nD τ).loc main_arg2)) : FVec Ideal S128x12502 .bf16) := by
  dsimp only [Gen.V, Gen.hostOps0]
  after_results_simp
  rfl

theorem V_v29 (c : Dev nD) :
    (V m c main_v29 : FVec Ideal S128x64 .bf16)
      = (Cert.ReferenceIdeal.Adaptive.T3 (m ((c : Thread nD τ).loc main_arg3)) : FVec Ideal S128x64 .bf16) := by
  dsimp only [Gen.V, Gen.hostOps0]
  after_results_simp
  rfl

theorem V_v30 (c : Dev nD) :
    (V m c main_v30 : FVec Ideal S64x12500 .bf16)
      = (Cert.ReferenceIdeal.Adaptive.T4 (m ((c : Thread nD τ).loc main_arg4)) : FVec Ideal S64x12500 .bf16) := by
  dsimp only [Gen.V, Gen.hostOps0]
  after_results_simp
  rfl

theorem V_v31 (c : Dev nD) :
    (V m c main_v31 : FVec Ideal S128x32 .bf16)
      = (Cert.ReferenceIdeal.Adaptive.T5 (m ((c : Thread nD τ).loc main_arg5)) : FVec Ideal S128x32 .bf16) := by
  dsimp only [Gen.V, Gen.hostOps0]
  after_results_simp
  rfl

theorem V_v32 (c : Dev nD) :
    (V m c main_v32 : FVec Ideal S32x25000 .bf16)
      = (Cert.ReferenceIdeal.Adaptive.T6 (m ((c : Thread nD τ).loc main_arg6)) : FVec Ideal S32x25000 .bf16) := by
  dsimp only [Gen.V, Gen.hostOps0]
  after_results_simp
  rfl

theorem arrayOf_congr {R : ℕ} {P P' : (⟨2, ![R, 128]⟩ : Shape).Idx → EReal} {A1 A1' : (⟨2, ![128, 12502]⟩ : Shape).Idx → EReal}
    {A2 A2' : (⟨2, ![128, 64]⟩ : Shape).Idx → EReal} {A3 A3' : (⟨2, ![64, 12500]⟩ : Shape).Idx → EReal}
    {A4 A4' : (⟨2, ![128, 32]⟩ : Shape).Idx → EReal} {A5 A5' : (⟨2, ![32, 25000]⟩ : Shape).Idx → EReal}
    (hP : P = P') (h1 : A1 = A1') (h2 : A2 = A2') (h3 : A3 = A3') (h4 : A4 = A4') (h5 : A5 = A5') :
    arrayOf P A1 A2 A3 A4 A5 = arrayOf P' A1' A2' A3' A4' A5' := by
  subst hP h1 h2 h3 h4 h5; rfl

/-- THE KERNEL'S RESULT as a function of @main's arguments: the reference's result of the same arguments. -/
theorem G_eq (c : Dev nD) :
    G m c = Cert.ReferenceIdeal.Adaptive.refArray (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [Cert.ReferenceIdeal.Adaptive.refArray_eq]
  unfold G
  exact arrayOf_congr (V_v22 m c) (V_v28 m c) (V_v29 m c) (V_v30 m c) (V_v31 m c) (V_v32 m c)

end Cert.KernelIdeal.AdaptiveValue

end
-- ==== Proof.RefRun.lean ====
/-
  The reference's run: every weakly fair execution of its @main terminates with the result buffer at `refArray` of the
  seven arguments, the arguments unchanged.

  @main is a straight line of 91 host operations (the three log-softmax calls stand inline at their call sites). The buffer
  contents after a straight line are the fold of the operations' results over the launch contents. The line is cut into four
  stretches and a last operation and each stretch is read for ANY contents it starts from: the first leaves the pooled rows; the second the
  head's log-softmax and its first 12500 columns; the third cluster 0's lanes; the fourth cluster 1's lanes; the last operation is the concatenation. Reading one stretch at a time keeps every term the size of one stretch.
-/
import proofs.«107135_j41137196761528_2_alg».proof.Proof.Gen.ReferenceIdeal
import Idealize.ShloMosaic.Lib.StableHlo.Run
import proofs.«107135_j41137196761528_2_alg».proof.Proof.RefTerm

noncomputable section

namespace Cert.ReferenceIdeal.Adaptive

open Cert.ReferenceIdeal Cert.ReferenceIdeal.Gen Idealize.ShloMosaic Idealize.ShloMosaic.TcCoe Idealize.SL.Sem Idealize.ShloMosaic.StableHlo

variable {F : FTy → Type} [FloatOps F]

/-- The contents after two stretches are the second's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and read back are the contents. -/
theorem ofBuf_toBuf {sig : RefSig} {T : BufTy} {Val : EltTy → Type} (x : TRef sig T) (v : T.Contents Val) :
    x.ofBuf (x.toBuf v) = v := by
  unfold TRef.ofBuf TRef.toBuf
  rw [cast_cast]
  rfl

/-- @main's 91 operations, in order (a called function's operations stand in its call's place). -/
abbrev ops : List (HloOp τ sig (Elt F)) :=
  [ nullary main_c (constantI S_ 32 0#32),
    unary main_c main_v0 (broadcastInDim S2048x50 ![] bcast_S_S2048x50 : (⟨S_, .i32⟩ : BufTy).Contents (Elt F) → (⟨S2048x50, .i32⟩ : BufTy).Contents (Elt F)),
    binary main_arg0 main_v0 main_v1 (cmpi .ne : (⟨S2048x50, .i32⟩ : BufTy).Contents (Elt F) → (⟨S2048x50, .i32⟩ : BufTy).Contents (Elt F) → (⟨S2048x50, .i1⟩ : BufTy).Contents (Elt F)),
    nullary main_c_0 (constantI S_ 32 0#32),
    unary main_c_0 main_v2 (broadcastInDim S2048x50 ![] bcast_S_S2048x50 : (⟨S_, .i32⟩ : BufTy).Contents (Elt F) → (⟨S2048x50, .i32⟩ : BufTy).Contents (Elt F)),
    binary main_arg0 main_v2 main_v3 (cmpi .slt : (⟨S2048x50, .i32⟩ : BufTy).Contents (Elt F) → (⟨S2048x50, .i32⟩ : BufTy).Contents (Elt F) → (⟨S2048x50, .i1⟩ : BufTy).Contents (Elt F)),
    nullary main_c_1 (constantI S_ 32 1000000#32),
    unary main_c_1 main_v4 (broadcastInDim S2048x50 ![] bcast_S_S2048x50 : (⟨S_, .i32⟩ : BufTy).Contents (Elt F) → (⟨S2048x50, .i32⟩ : BufTy).Contents (Elt F)),
    binary main_arg0 main_v4 main_v5 (addi : (⟨S2048x50, .i32⟩ : BufTy).Contents (Elt F) → (⟨S2048x50, .i32⟩ : BufTy).Contents (Elt F) → (⟨S2048x50, .i32⟩ : BufTy).Contents (Elt F)),
    ternary main_v3 main_v5 main_arg0 main_v6 (select : (⟨S2048x50, .i1⟩ : BufTy).Contents (Elt F) → (⟨S2048x50, .i32⟩ : BufTy).Contents (Elt F) → (⟨S2048x50, .i32⟩ : BufTy).Contents (Elt F) → (⟨S2048x50, .i32⟩ : BufTy).Contents (Elt F)),
    unary main_v6 main_v7 (broadcastInDim S2048x50x1 ![0, 1] bcast_S2048x50_S2048x50x1_0_1 : (⟨S2048x50, .i32⟩ : BufTy).Contents (Elt F) → (⟨S2048x50x1, .i32⟩ : BufTy).Contents (Elt F)),
    binary main_arg1 main_v7 main_v8 ((fun x i => Host.gather gather_S1000000x128_S2048x50x1_S2048x50x128_2_0_n_n_0_2_1128 x i) : (⟨S1000000x128, .f32⟩ : BufTy).Contents (Elt F) → (⟨S2048x50x1, .i32⟩ : BufTy).Contents (Elt F) → (⟨S2048x50x128, .f32⟩ : BufTy).Contents (Elt F)),
    unary main_v1 main_v9 (broadcastInDim S2048x50x1 ![0, 1] bcast_S2048x50_S2048x50x1_0_1 : (⟨S2048x50, .i1⟩ : BufTy).Contents (Elt F) → (⟨S2048x50x1, .i1⟩ : BufTy).Contents (Elt F)),
    unary main_v9 main_v10 (uitofp .f32 : (⟨S2048x50x1, .i1⟩ : BufTy).Contents (Elt F) → (⟨S2048x50x1, .f32⟩ : BufTy).Contents (Elt F)),
    unary main_v10 main_v11 (broadcastInDim S2048x50x128 ![0, 1, 2] bcast_S2048x50x1_S2048x50x128_0_1_2 : (⟨S2048x50x1, .f32⟩ : BufTy).Contents (Elt F) → (⟨S2048x50x128, .f32⟩ : BufTy).Contents (Elt F)),
    binary main_v8 main_v11 main_v12 (mulf : (⟨S2048x50x128, .f32⟩ : BufTy).Contents (Elt F) → (⟨S2048x50x128, .f32⟩ : BufTy).Contents (Elt F) → (⟨S2048x50x128, .f32⟩ : BufTy).Contents (Elt F)),
    unary main_v1 main_v13 ((extui 32 · natLt_1_32) : (⟨S2048x50, .i1⟩ : BufTy).Contents (Elt F) → (⟨S2048x50, .i32⟩ : BufTy).Contents (Elt F)),
    nullary main_c_2 (constantI S_ 32 0#32),
    binary main_v13 main_c_2 main_v14 ((fun x v => Host.reduce IntOp.addi x v reducesTo_S2048x50_S2048_d1 h_S_) : (⟨S2048x50, .i32⟩ : BufTy).Contents (Elt F) → (⟨S_, .i32⟩ : BufTy).Contents (Elt F) → (⟨S2048, .i32⟩ : BufTy).Contents (Elt F)),
    unary main_v14 main_v15 (broadcastInDim S2048x1 ![0] bcast_S2048_S2048x1_0 : (⟨S2048, .i32⟩ : BufTy).Contents (Elt F) → (⟨S2048x1, .i32⟩ : BufTy).Contents (Elt F)),
    nullary main_c_3 (constantI S_ 32 1#32),
    unary main_c_3 main_v16 (broadcastInDim S2048x1 ![] bcast_S_S2048x1 : (⟨S_, .i32⟩ : BufTy).Contents (Elt F) → (⟨S2048x1, .i32⟩ : BufTy).Contents (Elt F)),
    binary main_v15 main_v16 main_v17 (maxsi : (⟨S2048x1, .i32⟩ : BufTy).Contents (Elt F) → (⟨S2048x1, .i32⟩ : BufTy).Contents (Elt F) → (⟨S2048x1, .i32⟩ : BufTy).Contents (Elt F)),
    unary main_v17 main_v18 (sitofp .f32 : (⟨S2048x1, .i32⟩ : BufTy).Contents (Elt F) → (⟨S2048x1, .f32⟩ : BufTy).Contents (Elt F)),
    nullary main_cst (constant S_ .f32 0x00000000#32),
    binary main_v12 main_cst main_v19 ((fun x v => Host.reduceAdd x v reducesTo_S2048x50x128_S2048x128_d1 h_S_) : (⟨S2048x50x128, .f32⟩ : BufTy).Contents (Elt F) → (⟨S_, .f32⟩ : BufTy).Contents (Elt F) → (⟨S2048x128, .f32⟩ : BufTy).Contents (Elt F)),
    unary main_v18 main_v20 (broadcastInDim S2048x128 ![0, 1] bcast_S2048x1_S2048x128_0_1 : (⟨S2048x1, .f32⟩ : BufTy).Contents (Elt F) → (⟨S2048x128, .f32⟩ : BufTy).Contents (Elt F)),
    binary main_v19 main_v20 main_v21 (Host.divf : (⟨S2048x128, .f32⟩ : BufTy).Contents (Elt F) → (⟨S2048x128, .f32⟩ : BufTy).Contents (Elt F) → (⟨S2048x128, .f32⟩ : BufTy).Contents (Elt F)),
    unary main_arg2 main_v22 ((transpose S128x12502 [1, 0] · transposes_S12502x128_S128x12502_1_0) : (⟨S12502x128, .f32⟩ : BufTy).Contents (Elt F) → (⟨S128x12502, .f32⟩ : BufTy).Contents (Elt F)),
    binary main_v21 main_v22 main_v23 ((fun l r => Host.dotGeneral dot_S2048x128_S128x12502_S2048x12502_1_0_0_1_n_n none l r) : (⟨S2048x128, .f32⟩ : BufTy).Contents (Elt F) → (⟨S128x12502, .f32⟩ : BufTy).Contents (Elt F) → (⟨S2048x12502, .f32⟩ : BufTy).Contents (Elt F)),
    TRef.nullary (TRef.of (T := ⟨S_, .f32⟩) main_call0_cst) (constant S_ .f32 0xFF800000#32),
    TRef.binary (TRef.of (T := ⟨S2048x12502, .f32⟩) main_v23) (TRef.of (T := ⟨S_, .f32⟩) main_call0_cst) (TRef.of (T := ⟨S2048, .f32⟩) main_call0_v0) (fun x v => Host.reduce FloatOps.maximumf x v reducesTo_S2048x12502_S2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2048, .f32⟩) main_call0_v1) (broadcastInDim S2048 ![] bcast_S_S2048),
    TRef.binary (TRef.of (T := ⟨S2048, .f32⟩) main_call0_v1) (TRef.of (T := ⟨S2048, .f32⟩) main_call0_v0) (TRef.of (T := ⟨S2048, .f32⟩) main_call0_v2) maximumf,
    TRef.unary (TRef.of (T := ⟨S2048, .f32⟩) main_call0_v2) (TRef.of (T := ⟨S2048x1, .f32⟩) main_call0_v3) (broadcastInDim S2048x1 ![0] bcast_S2048_S2048x1_0),
    TRef.unary (TRef.of (T := ⟨S2048x1, .f32⟩) main_call0_v3) (TRef.of (T := ⟨S2048x12502, .f32⟩) main_call0_v4) (broadcastInDim S2048x12502 ![0, 1] bcast_S2048x1_S2048x12502_0_1),
    TRef.binary (TRef.of (T := ⟨S2048x12502, .f32⟩) main_v23) (TRef.of (T := ⟨S2048x12502, .f32⟩) main_call0_v4) (TRef.of (T := ⟨S2048x12502, .f32⟩) main_call0_v5) subf,
    TRef.unary (TRef.of (T := ⟨S2048x12502, .f32⟩) main_call0_v5) (TRef.of (T := ⟨S2048x12502, .f32⟩) main_call0_v6) Host.exp,
    TRef.nullary (TRef.of (T := ⟨S_, .f32⟩) main_call0_cst_1) (constant S_ .f32 0x00000000#32),
    TRef.binary (TRef.of (T := ⟨S2048x12502, .f32⟩) main_call0_v6) (TRef.of (T := ⟨S_, .f32⟩) main_call0_cst_1) (TRef.of (T := ⟨S2048, .f32⟩) main_call0_v7) (fun x v => Host.reduceAdd x v reducesTo_S2048x12502_S2048_d1 h_S_),
    TRef.unary (TRef.of (T := ⟨S2048, .f32⟩) main_call0_v7) (TRef.of (T := ⟨S2048x1, .f32⟩) main_call0_v8) (broadcastInDim S2048x1 ![0] bcast_S2048_S2048x1_0),
    TRef.unary (TRef.of (T := ⟨S2048x1, .f32⟩) main_call0_v8) (TRef.of (T := ⟨S2048x1, .f32⟩) main_call0_v9) Host.log,
    TRef.unary (TRef.of (T := ⟨S2048x1, .f32⟩) main_call0_v9) (TRef.of (T := ⟨S2048x12502, .f32⟩) main_call0_v10) (broadcastInDim S2048x12502 ![0, 1] bcast_S2048x1_S2048x12502_0_1),
    TRef.binary (TRef.of (T := ⟨S2048x12502, .f32⟩) main_call0_v5) (TRef.of (T := ⟨S2048x12502, .f32⟩) main_call0_v10) (TRef.of (T := ⟨S2048x12502, .f32⟩) main_v24) subf,
    unary main_v24 main_v25 ((extractStridedSlice S2048x12500 ![0, 0] · slices_S2048x12502_S2048x12500_0_0) : (⟨S2048x12502, .f32⟩ : BufTy).Contents (Elt F) → (⟨S2048x12500, .f32⟩ : BufTy).Contents (Elt F)),
    unary main_arg3 main_v26 ((transpose S128x64 [1, 0] · transposes_S64x128_S128x64_1_0) : (⟨S64x128, .f32⟩ : BufTy).Contents (Elt F) → (⟨S128x64, .f32⟩ : BufTy).Contents (Elt F)),
    binary main_v21 main_v26 main_v27 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    unary main_arg4 main_v28 ((transpose S64x12500 [1, 0] · transposes_S12500x64_S64x12500_1_0) : (⟨S12500x64, .f32⟩ : BufTy).Contents (Elt F) → (⟨S64x12500, .f32⟩ : BufTy).Contents (Elt F)),
    binary main_v27 main_v28 main_v29 ((fun l r => Host.dotGeneral dot_S2048x64_S64x12500_S2048x12500_1_0_0_1_n_n none l r) : (⟨S2048x64, .f32⟩ : BufTy).Contents (Elt F) → (⟨S64x12500, .f32⟩ : BufTy).Contents (Elt F) → (⟨S2048x12500, .f32⟩ : BufTy).Contents (Elt F)),
    TRef.nullary (TRef.of (T := ⟨S_, .f32⟩) main_call1_cst) (constant S_ .f32 0xFF800000#32),
    TRef.binary (TRef.of (T := ⟨S2048x12500, .f32⟩) main_v29) (TRef.of (T := ⟨S_, .f32⟩) main_call1_cst) (TRef.of (T := ⟨S2048, .f32⟩) main_call1_v0) (fun x v => Host.reduce FloatOps.maximumf x v reducesTo_S2048x12500_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x12500, .f32⟩) main_call1_v4) (broadcastInDim S2048x12500 ![0, 1] bcast_S2048x1_S2048x12500_0_1),
    TRef.binary (TRef.of (T := ⟨S2048x12500, .f32⟩) main_v29) (TRef.of (T := ⟨S2048x12500, .f32⟩) main_call1_v4) (TRef.of (T := ⟨S2048x12500, .f32⟩) main_call1_v5) subf,
    TRef.unary (TRef.of (T := ⟨S2048x12500, .f32⟩) main_call1_v5) (TRef.of (T := ⟨S2048x12500, .f32⟩) main_call1_v6) Host.exp,
    TRef.nullary (TRef.of (T := ⟨S_, .f32⟩) main_call1_cst_1) (constant S_ .f32 0x00000000#32),
    TRef.binary (TRef.of (T := ⟨S2048x12500, .f32⟩) main_call1_v6) (TRef.of (T := ⟨S_, .f32⟩) main_call1_cst_1) (TRef.of (T := ⟨S2048, .f32⟩) main_call1_v7) (fun x v => Host.reduceAdd x v reducesTo_S2048x12500_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x12500, .f32⟩) main_call1_v10) (broadcastInDim S2048x12500 ![0, 1] bcast_S2048x1_S2048x12500_0_1),
    TRef.binary (TRef.of (T := ⟨S2048x12500, .f32⟩) main_call1_v5) (TRef.of (T := ⟨S2048x12500, .f32⟩) main_call1_v10) (TRef.of (T := ⟨S2048x12500, .f32⟩) main_v30) subf,
    unary main_v24 main_v31 ((extractStridedSlice S2048x1 ![0, 12500] · slices_S2048x12502_S2048x1_0_12500) : (⟨S2048x12502, .f32⟩ : BufTy).Contents (Elt F) → (⟨S2048x1, .f32⟩ : BufTy).Contents (Elt F)),
    unary main_v31 main_v32 (broadcastInDim S2048x12500 ![0, 1] bcast_S2048x1_S2048x12500_0_1 : (⟨S2048x1, .f32⟩ : BufTy).Contents (Elt F) → (⟨S2048x12500, .f32⟩ : BufTy).Contents (Elt F)),
    binary main_v30 main_v32 main_v33 (addf : (⟨S2048x12500, .f32⟩ : BufTy).Contents (Elt F) → (⟨S2048x12500, .f32⟩ : BufTy).Contents (Elt F) → (⟨S2048x12500, .f32⟩ : BufTy).Contents (Elt F)),
    unary main_arg5 main_v34 ((transpose S128x32 [1, 0] · transposes_S32x128_S128x32_1_0) : (⟨S32x128, .f32⟩ : BufTy).Contents (Elt F) → (⟨S128x32, .f32⟩ : BufTy).Contents (Elt F)),
    binary main_v21 main_v34 main_v35 ((fun l r => Host.dotGeneral dot_S2048x128_S128x32_S2048x32_1_0_0_1_n_n none l r) : (⟨S2048x128, .f32⟩ : BufTy).Contents (Elt F) → (⟨S128x32, .f32⟩ : BufTy).Contents (Elt F) → (⟨S2048x32, .f32⟩ : BufTy).Contents (Elt F)),
    unary main_arg6 main_v36 ((transpose S32x25000 [1, 0] · transposes_S25000x32_S32x25000_1_0) : (⟨S25000x32, .f32⟩ : BufTy).Contents (Elt F) → (⟨S32x25000, .f32⟩ : BufTy).Contents (Elt F)),
    binary main_v35 main_v36 main_v37 ((fun l r => Host.dotGeneral dot_S2048x32_S32x25000_S2048x25000_1_0_0_1_n_n none l r) : (⟨S2048x32, .f32⟩ : BufTy).Contents (Elt F) → (⟨S32x25000, .f32⟩ : BufTy).Contents (Elt F) → (⟨S2048x25000, .f32⟩ : BufTy).Contents (Elt F)),
    TRef.nullary (TRef.of (T := ⟨S_, .f32⟩) main_call2_cst) (constant S_ .f32 0xFF800000#32),
    TRef.binary (TRef.of (T := ⟨S2048x25000, .f32⟩) main_v37) (TRef.of (T := ⟨S_, .f32⟩) main_call2_cst) (TRef.of (T := ⟨S2048, .f32⟩) main_call2_v0) (fun x v => Host.reduce FloatOps.maximumf x v reducesTo_S2048x25000_S2048_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S2048, .f32⟩) main_call2_v1) (broadcastInDim S2048 ![] bcast_S_S2048),
    TRef.binary (TRef.of (T := ⟨S2048, .f32⟩) main_call2_v1) (TRef.of (T := ⟨S2048, .f32⟩) main_call2_v0) (TRef.of (T := ⟨S2048, .f32⟩) main_call2_v2) maximumf,
    TRef.unary (TRef.of (T := ⟨S2048, .f32⟩) main_call2_v2) (TRef.of (T := ⟨S2048x1, .f32⟩) main_call2_v3) (broadcastInDim S2048x1 ![0] bcast_S2048_S2048x1_0),
    TRef.unary (TRef.of (T := ⟨S2048x1, .f32⟩) main_call2_v3) (TRef.of (T := ⟨S2048x25000, .f32⟩) main_call2_v4) (broadcastInDim S2048x25000 ![0, 1] bcast_S2048x1_S2048x25000_0_1),
    TRef.binary (TRef.of (T := ⟨S2048x25000, .f32⟩) main_v37) (TRef.of (T := ⟨S2048x25000, .f32⟩) main_call2_v4) (TRef.of (T := ⟨S2048x25000, .f32⟩) main_call2_v5) subf,
    TRef.unary (TRef.of (T := ⟨S2048x25000, .f32⟩) main_call2_v5) (TRef.of (T := ⟨S2048x25000, .f32⟩) main_call2_v6) Host.exp,
    TRef.nullary (TRef.of (T := ⟨S_, .f32⟩) main_call2_cst_1) (constant S_ .f32 0x00000000#32),
    TRef.binary (TRef.of (T := ⟨S2048x25000, .f32⟩) main_call2_v6) (TRef.of (T := ⟨S_, .f32⟩) main_call2_cst_1) (TRef.of (T := ⟨S2048, .f32⟩) main_call2_v7) (fun x v => Host.reduceAdd x v reducesTo_S2048x25000_S2048_d1 h_S_),
    TRef.unary (TRef.of (T := ⟨S2048, .f32⟩) main_call2_v7) (TRef.of (T := ⟨S2048x1, .f32⟩) main_call2_v8) (broadcastInDim S2048x1 ![0] bcast_S2048_S2048x1_0),
    TRef.unary (TRef.of (T := ⟨S2048x1, .f32⟩) main_call2_v8) (TRef.of (T := ⟨S2048x1, .f32⟩) main_call2_v9) Host.log,
    TRef.unary (TRef.of (T := ⟨S2048x1, .f32⟩) main_call2_v9) (TRef.of (T := ⟨S2048x25000, .f32⟩) main_call2_v10) (broadcastInDim S2048x25000 ![0, 1] bcast_S2048x1_S2048x25000_0_1),
    TRef.binary (TRef.of (T := ⟨S2048x25000, .f32⟩) main_call2_v5) (TRef.of (T := ⟨S2048x25000, .f32⟩) main_call2_v10) (TRef.of (T := ⟨S2048x25000, .f32⟩) main_v38) subf,
    unary main_v24 main_v39 ((extractStridedSlice S2048x1 ![0, 12501] · slices_S2048x12502_S2048x1_0_12501) : (⟨S2048x12502, .f32⟩ : BufTy).Contents (Elt F) → (⟨S2048x1, .f32⟩ : BufTy).Contents (Elt F)),
    unary main_v39 main_v40 (broadcastInDim S2048x25000 ![0, 1] bcast_S2048x1_S2048x25000_0_1 : (⟨S2048x1, .f32⟩ : BufTy).Contents (Elt F) → (⟨S2048x25000, .f32⟩ : BufTy).Contents (Elt F)),
    binary main_v38 main_v40 main_v41 (addf : (⟨S2048x25000, .f32⟩ : BufTy).Contents (Elt F) → (⟨S2048x25000, .f32⟩ : BufTy).Contents (Elt F) → (⟨S2048x25000, .f32⟩ : BufTy).Contents (Elt F)),
    nary ![main_v25, main_v33, main_v41] main_v42 (fun u => concatenate S2048x50000 1 [⟨S2048x12500, u 0⟩, ⟨S2048x12500, u 1⟩, ⟨S2048x25000, u 2⟩] concatenates_S2048x12500_S2048x12500_S2048x25000_S2048x50000_d1) ]

/-- The first stretch: the pooling. -/
def ops1 : List (HloOp τ sig (Elt F)) :=
  [ nullary main_c (constantI S_ 32 0#32),
    unary main_c main_v0 (broadcastInDim S2048x50 ![] bcast_S_S2048x50 : (⟨S_, .i32⟩ : BufTy).Contents (Elt F) → (⟨S2048x50, .i32⟩ : BufTy).Contents (Elt F)),
    binary main_arg0 main_v0 main_v1 (cmpi .ne : (⟨S2048x50, .i32⟩ : BufTy).Contents (Elt F) → (⟨S2048x50, .i32⟩ : BufTy).Contents (Elt F) → (⟨S2048x50, .i1⟩ : BufTy).Contents (Elt F)),
    nullary main_c_0 (constantI S_ 32 0#32),
    unary main_c_0 main_v2 (broadcastInDim S2048x50 ![] bcast_S_S2048x50 : (⟨S_, .i32⟩ : BufTy).Contents (Elt F) → (⟨S2048x50, .i32⟩ : BufTy).Contents (Elt F)),
    binary main_arg0 main_v2 main_v3 (cmpi .slt : (⟨S2048x50, .i32⟩ : BufTy).Contents (Elt F) → (⟨S2048x50, .i32⟩ : BufTy).Contents (Elt F) → (⟨S2048x50, .i1⟩ : BufTy).Contents (Elt F)),
    nullary main_c_1 (constantI S_ 32 1000000#32),
    unary main_c_1 main_v4 (broadcastInDim S2048x50 ![] bcast_S_S2048x50 : (⟨S_, .i32⟩ : BufTy).Contents (Elt F) → (⟨S2048x50, .i32⟩ : BufTy).Contents (Elt F)),
    binary main_arg0 main_v4 main_v5 (addi : (⟨S2048x50, .i32⟩ : BufTy).Contents (Elt F) → (⟨S2048x50, .i32⟩ : BufTy).Contents (Elt F) → (⟨S2048x50, .i32⟩ : BufTy).Contents (Elt F)),
    ternary main_v3 main_v5 main_arg0 main_v6 (select : (⟨S2048x50, .i1⟩ : BufTy).Contents (Elt F) → (⟨S2048x50, .i32⟩ : BufTy).Contents (Elt F) → (⟨S2048x50, .i32⟩ : BufTy).Contents (Elt F) → (⟨S2048x50, .i32⟩ : BufTy).Contents (Elt F)),
    unary main_v6 main_v7 (broadcastInDim S2048x50x1 ![0, 1] bcast_S2048x50_S2048x50x1_0_1 : (⟨S2048x50, .i32⟩ : BufTy).Contents (Elt F) → (⟨S2048x50x1, .i32⟩ : BufTy).Contents (Elt F)),
    binary main_arg1 main_v7 main_v8 ((fun x i => Host.gather gather_S1000000x128_S2048x50x1_S2048x50x128_2_0_n_n_0_2_1128 x i) : (⟨S1000000x128, .f32⟩ : BufTy).Contents (Elt F) → (⟨S2048x50x1, .i32⟩ : BufTy).Contents (Elt F) → (⟨S2048x50x128, .f32⟩ : BufTy).Contents (Elt F)),
    unary main_v1 main_v9 (broadcastInDim S2048x50x1 ![0, 1] bcast_S2048x50_S2048x50x1_0_1 : (⟨S2048x50, .i1⟩ : BufTy).Contents (Elt F) → (⟨S2048x50x1, .i1⟩ : BufTy).Contents (Elt F)),
    unary main_v9 main_v10 (uitofp .f32 : (⟨S2048x50x1, .i1⟩ : BufTy).Contents (Elt F) → (⟨S2048x50x1, .f32⟩ : BufTy).Contents (Elt F)),
    unary main_v10 main_v11 (broadcastInDim S2048x50x128 ![0, 1, 2] bcast_S2048x50x1_S2048x50x128_0_1_2 : (⟨S2048x50x1, .f32⟩ : BufTy).Contents (Elt F) → (⟨S2048x50x128, .f32⟩ : BufTy).Contents (Elt F)),
    binary main_v8 main_v11 main_v12 (mulf : (⟨S2048x50x128, .f32⟩ : BufTy).Contents (Elt F) → (⟨S2048x50x128, .f32⟩ : BufTy).Contents (Elt F) → (⟨S2048x50x128, .f32⟩ : BufTy).Contents (Elt F)),
    unary main_v1 main_v13 ((extui 32 · natLt_1_32) : (⟨S2048x50, .i1⟩ : BufTy).Contents (Elt F) → (⟨S2048x50, .i32⟩ : BufTy).Contents (Elt F)),
    nullary main_c_2 (constantI S_ 32 0#32),
    binary main_v13 main_c_2 main_v14 ((fun x v => Host.reduce IntOp.addi x v reducesTo_S2048x50_S2048_d1 h_S_) : (⟨S2048x50, .i32⟩ : BufTy).Contents (Elt F) → (⟨S_, .i32⟩ : BufTy).Contents (Elt F) → (⟨S2048, .i32⟩ : BufTy).Contents (Elt F)),
    unary main_v14 main_v15 (broadcastInDim S2048x1 ![0] bcast_S2048_S2048x1_0 : (⟨S2048, .i32⟩ : BufTy).Contents (Elt F) → (⟨S2048x1, .i32⟩ : BufTy).Contents (Elt F)),
    nullary main_c_3 (constantI S_ 32 1#32),
    unary main_c_3 main_v16 (broadcastInDim S2048x1 ![] bcast_S_S2048x1 : (⟨S_, .i32⟩ : BufTy).Contents (Elt F) → (⟨S2048x1, .i32⟩ : BufTy).Contents (Elt F)),
    binary main_v15 main_v16 main_v17 (maxsi : (⟨S2048x1, .i32⟩ : BufTy).Contents (Elt F) → (⟨S2048x1, .i32⟩ : BufTy).Contents (Elt F) → (⟨S2048x1, .i32⟩ : BufTy).Contents (Elt F)),
    unary main_v17 main_v18 (sitofp .f32 : (⟨S2048x1, .i32⟩ : BufTy).Contents (Elt F) → (⟨S2048x1, .f32⟩ : BufTy).Contents (Elt F)),
    nullary main_cst (constant S_ .f32 0x00000000#32),
    binary main_v12 main_cst main_v19 ((fun x v => Host.reduceAdd x v reducesTo_S2048x50x128_S2048x128_d1 h_S_) : (⟨S2048x50x128, .f32⟩ : BufTy).Contents (Elt F) → (⟨S_, .f32⟩ : BufTy).Contents (Elt F) → (⟨S2048x128, .f32⟩ : BufTy).Contents (Elt F)),
    unary main_v18 main_v20 (broadcastInDim S2048x128 ![0, 1] bcast_S2048x1_S2048x128_0_1 : (⟨S2048x1, .f32⟩ : BufTy).Contents (Elt F) → (⟨S2048x128, .f32⟩ : BufTy).Contents (Elt F)),
    binary main_v19 main_v20 main_v21 (Host.divf : (⟨S2048x128, .f32⟩ : BufTy).Contents (Elt F) → (⟨S2048x128, .f32⟩ : BufTy).Contents (Elt F) → (⟨S2048x128, .f32⟩ : BufTy).Contents (Elt F)) ]

/-- The second stretch: the head scores, their log-softmax and its first 12500 columns. -/
def ops2 : List (HloOp τ sig (Elt F)) :=
  [ unary main_arg2 main_v22 ((transpose S128x12502 [1, 0] · transposes_S12502x128_S128x12502_1_0) : (⟨S12502x128, .f32⟩ : BufTy).Contents (Elt F) → (⟨S128x12502, .f32⟩ : BufTy).Contents (Elt F)),
    binary main_v21 main_v22 main_v23 ((fun l r => Host.dotGeneral dot_S2048x128_S128x12502_S2048x12502_1_0_0_1_n_n none l r) : (⟨S2048x128, .f32⟩ : BufTy).Contents (Elt F) → (⟨S128x12502, .f32⟩ : BufTy).Contents (Elt F) → (⟨S2048x12502, .f32⟩ : BufTy).Contents (Elt F)),
    TRef.nullary (TRef.of (T := ⟨S_, .f32⟩) main_call0_cst) (constant S_ .f32 0xFF800000#32),
    TRef.binary (TRef.of (T := ⟨S2048x12502, .f32⟩) main_v23) (TRef.of (T := ⟨S_, .f32⟩) main_call0_cst) (TRef.of (T := ⟨S2048, .f32⟩) main_call0_v0) (fun x v => Host.reduce FloatOps.maximumf x v reducesTo_S2048x12502_S2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2048, .f32⟩) main_call0_v1) (broadcastInDim S2048 ![] bcast_S_S2048),
    TRef.binary (TRef.of (T := ⟨S2048, .f32⟩) main_call0_v1) (TRef.of (T := ⟨S2048, .f32⟩) main_call0_v0) (TRef.of (T := ⟨S2048, .f32⟩) main_call0_v2) maximumf,
    TRef.unary (TRef.of (T := ⟨S2048, .f32⟩) main_call0_v2) (TRef.of (T := ⟨S2048x1, .f32⟩) main_call0_v3) (broadcastInDim S2048x1 ![0] bcast_S2048_S2048x1_0),
    TRef.unary (TRef.of (T := ⟨S2048x1, .f32⟩) main_call0_v3) (TRef.of (T := ⟨S2048x12502, .f32⟩) main_call0_v4) (broadcastInDim S2048x12502 ![0, 1] bcast_S2048x1_S2048x12502_0_1),
    TRef.binary (TRef.of (T := ⟨S2048x12502, .f32⟩) main_v23) (TRef.of (T := ⟨S2048x12502, .f32⟩) main_call0_v4) (TRef.of (T := ⟨S2048x12502, .f32⟩) main_call0_v5) subf,
    TRef.unary (TRef.of (T := ⟨S2048x12502, .f32⟩) main_call0_v5) (TRef.of (T := ⟨S2048x12502, .f32⟩) main_call0_v6) Host.exp,
    TRef.nullary (TRef.of (T := ⟨S_, .f32⟩) main_call0_cst_1) (constant S_ .f32 0x00000000#32),
    TRef.binary (TRef.of (T := ⟨S2048x12502, .f32⟩) main_call0_v6) (TRef.of (T := ⟨S_, .f32⟩) main_call0_cst_1) (TRef.of (T := ⟨S2048, .f32⟩) main_call0_v7) (fun x v => Host.reduceAdd x v reducesTo_S2048x12502_S2048_d1 h_S_),
    TRef.unary (TRef.of (T := ⟨S2048, .f32⟩) main_call0_v7) (TRef.of (T := ⟨S2048x1, .f32⟩) main_call0_v8) (broadcastInDim S2048x1 ![0] bcast_S2048_S2048x1_0),
    TRef.unary (TRef.of (T := ⟨S2048x1, .f32⟩) main_call0_v8) (TRef.of (T := ⟨S2048x1, .f32⟩) main_call0_v9) Host.log,
    TRef.unary (TRef.of (T := ⟨S2048x1, .f32⟩) main_call0_v9) (TRef.of (T := ⟨S2048x12502, .f32⟩) main_call0_v10) (broadcastInDim S2048x12502 ![0, 1] bcast_S2048x1_S2048x12502_0_1),
    TRef.binary (TRef.of (T := ⟨S2048x12502, .f32⟩) main_call0_v5) (TRef.of (T := ⟨S2048x12502, .f32⟩) main_call0_v10) (TRef.of (T := ⟨S2048x12502, .f32⟩) main_v24) subf,
    unary main_v24 main_v25 ((extractStridedSlice S2048x12500 ![0, 0] · slices_S2048x12502_S2048x12500_0_0) : (⟨S2048x12502, .f32⟩ : BufTy).Contents (Elt F) → (⟨S2048x12500, .f32⟩ : BufTy).Contents (Elt F)) ]

/-- The third stretch: cluster 0. -/
def ops3 : List (HloOp τ sig (Elt F)) :=
  [ unary main_arg3 main_v26 ((transpose S128x64 [1, 0] · transposes_S64x128_S128x64_1_0) : (⟨S64x128, .f32⟩ : BufTy).Contents (Elt F) → (⟨S128x64, .f32⟩ : BufTy).Contents (Elt F)),
    binary main_v21 main_v26 main_v27 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    unary main_arg4 main_v28 ((transpose S64x12500 [1, 0] · transposes_S12500x64_S64x12500_1_0) : (⟨S12500x64, .f32⟩ : BufTy).Contents (Elt F) → (⟨S64x12500, .f32⟩ : BufTy).Contents (Elt F)),
    binary main_v27 main_v28 main_v29 ((fun l r => Host.dotGeneral dot_S2048x64_S64x12500_S2048x12500_1_0_0_1_n_n none l r) : (⟨S2048x64, .f32⟩ : BufTy).Contents (Elt F) → (⟨S64x12500, .f32⟩ : BufTy).Contents (Elt F) → (⟨S2048x12500, .f32⟩ : BufTy).Contents (Elt F)),
    TRef.nullary (TRef.of (T := ⟨S_, .f32⟩) main_call1_cst) (constant S_ .f32 0xFF800000#32),
    TRef.binary (TRef.of (T := ⟨S2048x12500, .f32⟩) main_v29) (TRef.of (T := ⟨S_, .f32⟩) main_call1_cst) (TRef.of (T := ⟨S2048, .f32⟩) main_call1_v0) (fun x v => Host.reduce FloatOps.maximumf x v reducesTo_S2048x12500_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x12500, .f32⟩) main_call1_v4) (broadcastInDim S2048x12500 ![0, 1] bcast_S2048x1_S2048x12500_0_1),
    TRef.binary (TRef.of (T := ⟨S2048x12500, .f32⟩) main_v29) (TRef.of (T := ⟨S2048x12500, .f32⟩) main_call1_v4) (TRef.of (T := ⟨S2048x12500, .f32⟩) main_call1_v5) subf,
    TRef.unary (TRef.of (T := ⟨S2048x12500, .f32⟩) main_call1_v5) (TRef.of (T := ⟨S2048x12500, .f32⟩) main_call1_v6) Host.exp,
    TRef.nullary (TRef.of (T := ⟨S_, .f32⟩) main_call1_cst_1) (constant S_ .f32 0x00000000#32),
    TRef.binary (TRef.of (T := ⟨S2048x12500, .f32⟩) main_call1_v6) (TRef.of (T := ⟨S_, .f32⟩) main_call1_cst_1) (TRef.of (T := ⟨S2048, .f32⟩) main_call1_v7) (fun x v => Host.reduceAdd x v reducesTo_S2048x12500_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x12500, .f32⟩) main_call1_v10) (broadcastInDim S2048x12500 ![0, 1] bcast_S2048x1_S2048x12500_0_1),
    TRef.binary (TRef.of (T := ⟨S2048x12500, .f32⟩) main_call1_v5) (TRef.of (T := ⟨S2048x12500, .f32⟩) main_call1_v10) (TRef.of (T := ⟨S2048x12500, .f32⟩) main_v30) subf,
    unary main_v24 main_v31 ((extractStridedSlice S2048x1 ![0, 12500] · slices_S2048x12502_S2048x1_0_12500) : (⟨S2048x12502, .f32⟩ : BufTy).Contents (Elt F) → (⟨S2048x1, .f32⟩ : BufTy).Contents (Elt F)),
    unary main_v31 main_v32 (broadcastInDim S2048x12500 ![0, 1] bcast_S2048x1_S2048x12500_0_1 : (⟨S2048x1, .f32⟩ : BufTy).Contents (Elt F) → (⟨S2048x12500, .f32⟩ : BufTy).Contents (Elt F)),
    binary main_v30 main_v32 main_v33 (addf : (⟨S2048x12500, .f32⟩ : BufTy).Contents (Elt F) → (⟨S2048x12500, .f32⟩ : BufTy).Contents (Elt F) → (⟨S2048x12500, .f32⟩ : BufTy).Contents (Elt F)) ]

/-- The fourth stretch: cluster 1. -/
def ops4 : List (HloOp τ sig (Elt F)) :=
  [ unary main_arg5 main_v34 ((transpose S128x32 [1, 0] · transposes_S32x128_S128x32_1_0) : (⟨S32x128, .f32⟩ : BufTy).Contents (Elt F) → (⟨S128x32, .f32⟩ : BufTy).Contents (Elt F)),
    binary main_v21 main_v34 main_v35 ((fun l r => Host.dotGeneral dot_S2048x128_S128x32_S2048x32_1_0_0_1_n_n none l r) : (⟨S2048x128, .f32⟩ : BufTy).Contents (Elt F) → (⟨S128x32, .f32⟩ : BufTy).Contents (Elt F) → (⟨S2048x32, .f32⟩ : BufTy).Contents (Elt F)),
    unary main_arg6 main_v36 ((transpose S32x25000 [1, 0] · transposes_S25000x32_S32x25000_1_0) : (⟨S25000x32, .f32⟩ : BufTy).Contents (Elt F) → (⟨S32x25000, .f32⟩ : BufTy).Contents (Elt F)),
    binary main_v35 main_v36 main_v37 ((fun l r => Host.dotGeneral dot_S2048x32_S32x25000_S2048x25000_1_0_0_1_n_n none l r) : (⟨S2048x32, .f32⟩ : BufTy).Contents (Elt F) → (⟨S32x25000, .f32⟩ : BufTy).Contents (Elt F) → (⟨S2048x25000, .f32⟩ : BufTy).Contents (Elt F)),
    TRef.nullary (TRef.of (T := ⟨S_, .f32⟩) main_call2_cst) (constant S_ .f32 0xFF800000#32),
    TRef.binary (TRef.of (T := ⟨S2048x25000, .f32⟩) main_v37) (TRef.of (T := ⟨S_, .f32⟩) main_call2_cst) (TRef.of (T := ⟨S2048, .f32⟩) main_call2_v0) (fun x v => Host.reduce FloatOps.maximumf x v reducesTo_S2048x25000_S2048_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S2048, .f32⟩) main_call2_v1) (broadcastInDim S2048 ![] bcast_S_S2048),
    TRef.binary (TRef.of (T := ⟨S2048, .f32⟩) main_call2_v1) (TRef.of (T := ⟨S2048, .f32⟩) main_call2_v0) (TRef.of (T := ⟨S2048, .f32⟩) main_call2_v2) maximumf,
    TRef.unary (TRef.of (T := ⟨S2048, .f32⟩) main_call2_v2) (TRef.of (T := ⟨S2048x1, .f32⟩) main_call2_v3) (broadcastInDim S2048x1 ![0] bcast_S2048_S2048x1_0),
    TRef.unary (TRef.of (T := ⟨S2048x1, .f32⟩) main_call2_v3) (TRef.of (T := ⟨S2048x25000, .f32⟩) main_call2_v4) (broadcastInDim S2048x25000 ![0, 1] bcast_S2048x1_S2048x25000_0_1),
    TRef.binary (TRef.of (T := ⟨S2048x25000, .f32⟩) main_v37) (TRef.of (T := ⟨S2048x25000, .f32⟩) main_call2_v4) (TRef.of (T := ⟨S2048x25000, .f32⟩) main_call2_v5) subf,
    TRef.unary (TRef.of (T := ⟨S2048x25000, .f32⟩) main_call2_v5) (TRef.of (T := ⟨S2048x25000, .f32⟩) main_call2_v6) Host.exp,
    TRef.nullary (TRef.of (T := ⟨S_, .f32⟩) main_call2_cst_1) (constant S_ .f32 0x00000000#32),
    TRef.binary (TRef.of (T := ⟨S2048x25000, .f32⟩) main_call2_v6) (TRef.of (T := ⟨S_, .f32⟩) main_call2_cst_1) (TRef.of (T := ⟨S2048, .f32⟩) main_call2_v7) (fun x v => Host.reduceAdd x v reducesTo_S2048x25000_S2048_d1 h_S_),
    TRef.unary (TRef.of (T := ⟨S2048, .f32⟩) main_call2_v7) (TRef.of (T := ⟨S2048x1, .f32⟩) main_call2_v8) (broadcastInDim S2048x1 ![0] bcast_S2048_S2048x1_0),
    TRef.unary (TRef.of (T := ⟨S2048x1, .f32⟩) main_call2_v8) (TRef.of (T := ⟨S2048x1, .f32⟩) main_call2_v9) Host.log,
    TRef.unary (TRef.of (T := ⟨S2048x1, .f32⟩) main_call2_v9) (TRef.of (T := ⟨S2048x25000, .f32⟩) main_call2_v10) (broadcastInDim S2048x25000 ![0, 1] bcast_S2048x1_S2048x25000_0_1),
    TRef.binary (TRef.of (T := ⟨S2048x25000, .f32⟩) main_call2_v5) (TRef.of (T := ⟨S2048x25000, .f32⟩) main_call2_v10) (TRef.of (T := ⟨S2048x25000, .f32⟩) main_v38) subf,
    unary main_v24 main_v39 ((extractStridedSlice S2048x1 ![0, 12501] · slices_S2048x12502_S2048x1_0_12501) : (⟨S2048x12502, .f32⟩ : BufTy).Contents (Elt F) → (⟨S2048x1, .f32⟩ : BufTy).Contents (Elt F)),
    unary main_v39 main_v40 (broadcastInDim S2048x25000 ![0, 1] bcast_S2048x1_S2048x25000_0_1 : (⟨S2048x1, .f32⟩ : BufTy).Contents (Elt F) → (⟨S2048x25000, .f32⟩ : BufTy).Contents (Elt F)),
    binary main_v38 main_v40 main_v41 (addf : (⟨S2048x25000, .f32⟩ : BufTy).Contents (Elt F) → (⟨S2048x25000, .f32⟩ : BufTy).Contents (Elt F) → (⟨S2048x25000, .f32⟩ : BufTy).Contents (Elt F)) ]

/-- The last operation: the concatenation. -/
def ops5 : List (HloOp τ sig (Elt F)) :=
  [ nary ![main_v25, main_v33, main_v41] main_v42 (fun u => concatenate S2048x50000 1 [⟨S2048x12500, u 0⟩, ⟨S2048x12500, u 1⟩, ⟨S2048x25000, u 2⟩] concatenates_S2048x12500_S2048x12500_S2048x25000_S2048x50000_d1) ]

theorem ops_split : (ops (F := F)) = ops1 ++ (ops2 ++ (ops3 ++ (ops4 ++ ops5))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., nullary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., nary_bufs_sub ..⟩

/-- No operation writes argument 0. -/
theorem kept_arg0 (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, nary_writes, Finset.mem_singleton]
    repeat' apply And.intro
    all_goals exact devRef_ne_of_ne (by decide)))

/-- No operation writes argument 1. -/
theorem kept_arg1 (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, nary_writes, Finset.mem_singleton]
    repeat' apply And.intro
    all_goals exact devRef_ne_of_ne (by decide)))

/-- No operation writes argument 2. -/
theorem kept_arg2 (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, nary_writes, Finset.mem_singleton]
    repeat' apply And.intro
    all_goals exact devRef_ne_of_ne (by decide)))

/-- No operation writes argument 3. -/
theorem kept_arg3 (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, nary_writes, Finset.mem_singleton]
    repeat' apply And.intro
    all_goals exact devRef_ne_of_ne (by decide)))

/-- No operation writes argument 4. -/
theorem kept_arg4 (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, nary_writes, Finset.mem_singleton]
    repeat' apply And.intro
    all_goals exact devRef_ne_of_ne (by decide)))

/-- No operation writes argument 5. -/
theorem kept_arg5 (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, ternary_writes, nary_writes, Finset.mem_singleton]
    repeat' apply And.intro
    all_goals exact devRef_ne_of_ne (by decide)))

/-- No operation writes argument 6. -/
theorem kept_arg6 (V : Valuation τ sig (Elt F)) :
    after (ops (F := F)) V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, ternary_writes, nary_writes, Finset.mem_singleton]
    repeat' apply And.intro
    all_goals exact devRef_ne_of_ne (by decide)))

/-! ## The four stretches, from any contents -/

theorem stage1 (W : Valuation τ sig (Elt Ideal)) :
    after (ops1 (F := Ideal)) W (Proc.devRef .tc main_v21)
      = pooled (F := Ideal) (W (Proc.devRef .tc main_arg0)) (W (Proc.devRef .tc main_arg1)) := by
  unfold ops1
  after_results_simp
  rfl

theorem keep1_arg2 (W : Valuation τ sig (Elt Ideal)) :
    after (ops1 (F := Ideal)) W (Proc.devRef .tc main_arg2) = W (Proc.devRef .tc main_arg2) := by
  unfold ops1
  after_results_simp

theorem keep1_arg3 (W : Valuation τ sig (Elt Ideal)) :
    after (ops1 (F := Ideal)) W (Proc.devRef .tc main_arg3) = W (Proc.devRef .tc main_arg3) := by
  unfold ops1
  after_results_simp

theorem keep1_arg4 (W : Valuation τ sig (Elt Ideal)) :
    after (ops1 (F := Ideal)) W (Proc.devRef .tc main_arg4) = W (Proc.devRef .tc main_arg4) := by
  unfold ops1
  after_results_simp

theorem keep1_arg5 (W : Valuation τ sig (Elt Ideal)) :
    after (ops1 (F := Ideal)) W (Proc.devRef .tc main_arg5) = W (Proc.devRef .tc main_arg5) := by
  unfold ops1
  after_results_simp

theorem keep1_arg6 (W : Valuation τ sig (Elt Ideal)) :
    after (ops1 (F := Ideal)) W (Proc.devRef .tc main_arg6) = W (Proc.devRef .tc main_arg6) := by
  unfold ops1
  after_results_simp

theorem stage2_v24 (W : Valuation τ sig (Elt Ideal)) :
    after (ops2 (F := Ideal)) W (Proc.devRef .tc main_v24)
      = headLS (W (Proc.devRef .tc main_v21)) (W (Proc.devRef .tc main_arg2)) := by
  unfold ops2
  after_results_simp
  have hrd : ∀ v : main_v23.ty.Contents (Elt Ideal), (TRef.of (T := ⟨S2048x12502, .f32⟩) main_v23).ofBuf v = v := fun _ => rfl
  have hwr : ∀ v : (⟨S2048x12502, .f32⟩ : BufTy).Contents (Elt Ideal), (TRef.of (T := ⟨S2048x12502, .f32⟩) main_v24).toBuf v = v := fun _ => rfl
  simp only [ofBuf_toBuf, hrd, hwr]
  rfl

theorem stage2_v25 (W : Valuation τ sig (Elt Ideal)) :
    after (ops2 (F := Ideal)) W (Proc.devRef .tc main_v25)
      = extractStridedSlice S2048x12500 ![0, 0] (headLS (W (Proc.devRef .tc main_v21)) (W (Proc.devRef .tc main_arg2)))
          slices_S2048x12502_S2048x12500_0_0 := by
  unfold ops2
  after_results_simp
  have hrd : ∀ v : main_v23.ty.Contents (Elt Ideal), (TRef.of (T := ⟨S2048x12502, .f32⟩) main_v23).ofBuf v = v := fun _ => rfl
  have hwr : ∀ v : (⟨S2048x12502, .f32⟩ : BufTy).Contents (Elt Ideal), (TRef.of (T := ⟨S2048x12502, .f32⟩) main_v24).toBuf v = v := fun _ => rfl
  simp only [ofBuf_toBuf, hrd, hwr]
  rfl

theorem keep2_v21 (W : Valuation τ sig (Elt Ideal)) :
    after (ops2 (F := Ideal)) W (Proc.devRef .tc main_v21) = W (Proc.devRef .tc main_v21) := by
  unfold ops2
  after_results_simp

theorem keep2_arg3 (W : Valuation τ sig (Elt Ideal)) :
    after (ops2 (F := Ideal)) W (Proc.devRef .tc main_arg3) = W (Proc.devRef .tc main_arg3) := by
  unfold ops2
  after_results_simp

theorem keep2_arg4 (W : Valuation τ sig (Elt Ideal)) :
    after (ops2 (F := Ideal)) W (Proc.devRef .tc main_arg4) = W (Proc.devRef .tc main_arg4) := by
  unfold ops2
  after_results_simp

theorem keep2_arg5 (W : Valuation τ sig (Elt Ideal)) :
    after (ops2 (F := Ideal)) W (Proc.devRef .tc main_arg5) = W (Proc.devRef .tc main_arg5) := by
  unfold ops2
  after_results_simp

theorem keep2_arg6 (W : Valuation τ sig (Elt Ideal)) :
    after (ops2 (F := Ideal)) W (Proc.devRef .tc main_arg6) = W (Proc.devRef .tc main_arg6) := by
  unfold ops2
  after_results_simp

theorem stage3 (W : Valuation τ sig (Elt Ideal)) :
    after (ops3 (F := Ideal)) W (Proc.devRef .tc main_v33)
      = addf (F := Ideal) (tail0LS (W (Proc.devRef .tc main_v21)) (W (Proc.devRef .tc main_arg3)) (W (Proc.devRef .tc main_arg4)))
          (broadcastInDim S2048x12500 ![0, 1] bcast_S2048x1_S2048x12500_0_1
            (extractStridedSlice S2048x1 ![0, 12500] (W (Proc.devRef .tc main_v24)) slices_S2048x12502_S2048x1_0_12500)) := by
  unfold ops3
  after_results_simp
  have hrd : ∀ v : main_v29.ty.Contents (Elt Ideal), (TRef.of (T := ⟨S2048x12500, .f32⟩) main_v29).ofBuf v = v := fun _ => rfl
  have hwr : ∀ v : (⟨S2048x12500, .f32⟩ : BufTy).Contents (Elt Ideal), (TRef.of (T := ⟨S2048x12500, .f32⟩) main_v30).toBuf v = v := fun _ => rfl
  simp only [ofBuf_toBuf, hrd, hwr]
  rfl

theorem keep3_v21 (W : Valuation τ sig (Elt Ideal)) :
    after (ops3 (F := Ideal)) W (Proc.devRef .tc main_v21) = W (Proc.devRef .tc main_v21) := by
  unfold ops3
  after_results_simp

theorem keep3_v24 (W : Valuation τ sig (Elt Ideal)) :
    after (ops3 (F := Ideal)) W (Proc.devRef .tc main_v24) = W (Proc.devRef .tc main_v24) := by
  unfold ops3
  after_results_simp

theorem keep3_v25 (W : Valuation τ sig (Elt Ideal)) :
    after (ops3 (F := Ideal)) W (Proc.devRef .tc main_v25) = W (Proc.devRef .tc main_v25) := by
  unfold ops3
  after_results_simp

theorem keep3_arg5 (W : Valuation τ sig (Elt Ideal)) :
    after (ops3 (F := Ideal)) W (Proc.devRef .tc main_arg5) = W (Proc.devRef .tc main_arg5) := by
  unfold ops3
  after_results_simp

theorem keep3_arg6 (W : Valuation τ sig (Elt Ideal)) :
    after (ops3 (F := Ideal)) W (Proc.devRef .tc main_arg6) = W (Proc.devRef .tc main_arg6) := by
  unfold ops3
  after_results_simp

theorem stage4 (W : Valuation τ sig (Elt Ideal)) :
    after (ops4 (F := Ideal)) W (Proc.devRef .tc main_v41)
      = addf (F := Ideal) (tail1LS (W (Proc.devRef .tc main_v21)) (W (Proc.devRef .tc main_arg5)) (W (Proc.devRef .tc main_arg6)))
          (broadcastInDim S2048x25000 ![0, 1] bcast_S2048x1_S2048x25000_0_1
            (extractStridedSlice S2048x1 ![0, 12501] (W (Proc.devRef .tc main_v24)) slices_S2048x12502_S2048x1_0_12501)) := by
  unfold ops4
  after_results_simp
  have hrd : ∀ v : main_v37.ty.Contents (Elt Ideal), (TRef.of (T := ⟨S2048x25000, .f32⟩) main_v37).ofBuf v = v := fun _ => rfl
  have hwr : ∀ v : (⟨S2048x25000, .f32⟩ : BufTy).Contents (Elt Ideal), (TRef.of (T := ⟨S2048x25000, .f32⟩) main_v38).toBuf v = v := fun _ => rfl
  simp only [ofBuf_toBuf, hrd, hwr]
  rfl

theorem keep4_v25 (W : Valuation τ sig (Elt Ideal)) :
    after (ops4 (F := Ideal)) W (Proc.devRef .tc main_v25) = W (Proc.devRef .tc main_v25) := by
  unfold ops4
  after_results_simp

theorem keep4_v33 (W : Valuation τ sig (Elt Ideal)) :
    after (ops4 (F := Ideal)) W (Proc.devRef .tc main_v33) = W (Proc.devRef .tc main_v33) := by
  unfold ops4
  after_results_simp

theorem stage5 (W : Valuation τ sig (Elt Ideal)) :
    after (ops5 (F := Ideal)) W (Proc.devRef .tc main_v42)
      = concatenate S2048x50000 1
          [⟨S2048x12500, W (Proc.devRef .tc main_v25)⟩, ⟨S2048x12500, W (Proc.devRef .tc main_v33)⟩,
           ⟨S2048x25000, W (Proc.devRef .tc main_v41)⟩]
          concatenates_S2048x12500_S2048x12500_S2048x25000_S2048x50000_d1 := by
  unfold ops5
  after_results_simp
  rfl

/-! ## The whole line -/

/-- The result buffer after the whole line, from any contents `V`: `refArray` of the argument buffers' contents. -/
theorem result_eq (V : Valuation τ sig (Elt Ideal)) :
    after (ops (F := Ideal)) V (Proc.devRef .tc main_v42)
      = refArray (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [ops_split, after_append, after_append, after_append, after_append, stage5, stage4, keep4_v25, keep4_v33, stage3]
  rw [keep3_v25, keep3_v21, keep3_v24, keep3_arg5, keep3_arg6]
  rw [stage2_v25, stage2_v24, keep2_v21, keep2_arg3, keep2_arg4, keep2_arg5, keep2_arg6]
  rw [stage1, keep1_arg2, keep1_arg3, keep1_arg4, keep1_arg5, keep1_arg6]
  rfl

/-- On every device, from any memory with zero counters: every weakly fair execution of @main terminates with the result
    at `refArray` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = refArray (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v42).trans (result_eq _),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _),
      (h c main_arg6).trans (kept_arg6 _)⟩)
    (run_seq scopedRefs_eq scopedSems_eq defs main (fun _ => ops) main_eq (fun _ => ops_sub) m ρ)

end Cert.ReferenceIdeal.Adaptive

end
-- ==== Proof.lean ====
/-
  The certificate of the adaptive log-softmax kernel against its jnp reference.

  Both programs pool the embedding rows of each of 2048 samples by the same host operations. The kernel then narrows the
  pooled rows and the five transposed weight arrays to bf16 and, on a grid of 64 points, computes for 32 rows at a time the
  head's log-softmax and the two clusters' log-softmaxes plus the clusters' head entries, storing the three lane ranges of
  its [32, 50000] output block. The reference computes the same three pieces on all 2048 rows at once and concatenates them.

  Over the extended reals a narrowing is the identity, a product into a zero accumulator is the plain sum over the
  contracted axis on both sides, and both sides compute each log-softmax as `(s - M) - log Σ exp (s - M)` with `M` the
  row's maximum folded from -∞. Every row of the result reads only the same row of the pooled array, so the kernel's 64
  blocks are the blocks of the one array the reference computes. Nothing needs finiteness: the precondition is not opened.

    frame_Kernel, frame_KernelIdeal        the generated frames;
    frame_ReferenceIdeal                   the reference's run (module RefRun) with the result dropped;
    preserves_Kernel_KernelIdeal           the ideal pass rewrote nothing: `True`;
    algebraic_KernelIdeal_ReferenceIdeal   the kernel's run (modules KernelPayload, KernelValue, KernelArray, KernelHost)
                                           beside the reference's (RefTerm, RefRun, RefRead): both results are
                                           `AdaptiveArray.arrayOf` of the pooled rows and the transposed weights.
-/
import proofs.«107135_j41137196761528_2_alg».proof.Defs
import proofs.«107135_j41137196761528_2_alg».proof.Proof.Gen.Kernel
import proofs.«107135_j41137196761528_2_alg».proof.Proof.Gen.Kernel.Skeleton
import proofs.«107135_j41137196761528_2_alg».proof.Proof.Gen.Kernel.Launch
import proofs.«107135_j41137196761528_2_alg».proof.Proof.Gen.Kernel.Points
import proofs.«107135_j41137196761528_2_alg».proof.Proof.Gen.Kernel.Frame
import proofs.«107135_j41137196761528_2_alg».proof.Proof.Gen.KernelIdeal
import proofs.«107135_j41137196761528_2_alg».proof.Proof.Gen.KernelIdeal.Skeleton
import proofs.«107135_j41137196761528_2_alg».proof.Proof.Gen.KernelIdeal.Launch
import proofs.«107135_j41137196761528_2_alg».proof.Proof.Gen.KernelIdeal.Points
import proofs.«107135_j41137196761528_2_alg».proof.Proof.Gen.KernelIdeal.Frame
import proofs.«107135_j41137196761528_2_alg».proof.Proof.Gen.ReferenceIdeal
import proofs.«107135_j41137196761528_2_alg».proof.Proof.Gen.Pre_finite_inputs
import proofs.«107135_j41137196761528_2_alg».proof.Proof.KernelHost
import proofs.«107135_j41137196761528_2_alg».proof.Proof.RefRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Adaptive.run m ρ)

/-- From memories that agree on the arguments the kernel's result array and the reference's are the same array: the
    reference's term of the arguments (`G_eq`). -/
theorem algebraic : Cert.algebraic_KernelIdeal_ReferenceIdeal := by
  intro m ρ m' ρ' _ hagree
  refine ⟨fun c => Cert.KernelIdeal.AdaptiveValue.G m c, Cert.KernelIdeal.AdaptiveValue.run m ρ, ?_⟩
  refine (θ_run Cert.ReferenceIdeal.defs _ _).mono (fun _ h c => ⟨(h c).1.trans ?_, (h c).2⟩)
    (Cert.ReferenceIdeal.Adaptive.run m' ρ')
  obtain ⟨e0, e1, e2, e3, e4, e5, e6⟩ := hagree c
  rw [e0, e1, e2, e3, e4, e5, e6]
  exact (Cert.KernelIdeal.AdaptiveValue.G_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
